-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x40 .f32) (main_arg8 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x40 .f32 := Host.absf main_arg7
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S256x256 .f32) (main_arg6 : FVec F S256 .f32) (main_arg7 : FVec F S256x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x800000 : Shape := ⟨2, ![1, 800000]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 91
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x40, .f32⟩
  | .hbm, ⟨8, _⟩ => ⟨S40, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .bf16⟩
  | .hbm, ⟨14, _⟩ => ⟨S128x256, .bf16⟩
  | .hbm, ⟨15, _⟩ => ⟨S50000x256, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x256, .f32⟩
  | .hbm, ⟨25, _⟩ => ⟨S800000x1, .f32⟩
  | .hbm, ⟨26, _⟩ => ⟨S800000x256, .f32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .bf16⟩
  | .hbm, ⟨35, _⟩ => ⟨S256x256, .bf16⟩
  | .hbm, ⟨36, _⟩ => ⟨S50000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S800000x1, .f32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .bf16⟩
  | .hbm, ⟨56, _⟩ => ⟨S256x40, .bf16⟩
  | .hbm, ⟨57, _⟩ => ⟨S50000x40, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x40, .f32⟩
  | .hbm, ⟨67, _⟩ => ⟨S800000x1, .f32⟩
  | .hbm, ⟨68, _⟩ => ⟨S800000x40, .f32⟩
  | .hbm, ⟨69, _⟩ => ⟨S800000x40, .f32⟩
  | .hbm, ⟨70, _⟩ => ⟨S_, .f32⟩
  | .hbm, ⟨71, _⟩ => ⟨S50000x40, .f32⟩
  | .hbm, ⟨72, _⟩ => ⟨S800000x1, .i32⟩
  | .hbm, ⟨73, _⟩ => ⟨S50000x40, .f32⟩
  | .hbm, ⟨74, _⟩ => ⟨S1x40, .f32⟩
  | .hbm, ⟨75, _⟩ => ⟨S50000x40, .f32⟩
  | .hbm, ⟨76, _⟩ => ⟨S_, .f32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x40, .f32⟩
  | .hbm, ⟨83, _⟩ => ⟨S50000x40, .f32⟩
  | .hbm, ⟨84, _⟩ => ⟨S50000x40, .f32⟩
  | .hbm, ⟨85, _⟩ => ⟨S_, .f32⟩
  | .hbm, ⟨86, _⟩ => ⟨S50000, .f32⟩
  | .hbm, ⟨87, _⟩ => ⟨S50000x1, .f32⟩
  | .hbm, ⟨88, _⟩ => ⟨S50000x1, .f32⟩
  | .hbm, ⟨89, _⟩ => ⟨S50000x40, .f32⟩
  | .hbm, ⟨90, _⟩ => ⟨S50000x40, .f32⟩
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S256x256, .bf16⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .bf16⟩
  | .local _ .vmem, ⟨21, _⟩ => ⟨S2000x256, .bf16⟩
  | .local _ .vmem, ⟨22, _⟩ => ⟨S256x40, .bf16⟩
  | .local _ .vmem, ⟨23, _⟩ => ⟨S2000x40, .f32⟩
  | .local _ .vmem, ⟨24, _⟩ => ⟨S2000x40, .f32⟩
  | .local _ .vmem, ⟨25, _⟩ => ⟨S2000x40, .f32⟩
  | .local _ .vmem, ⟨26, _⟩ => ⟨S2000x40, .f32⟩
  | .local _ .vmem, ⟨27, _⟩ => ⟨S1x40, .f32⟩
  | .local _ .vmem, ⟨28, _⟩ => ⟨S2000x40, .f32⟩
  | .local _ .vmem, ⟨29, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call0_cst : Ref sig .tc := ⟨.hbm, 76, rfl⟩
abbrev main_call0_v0 : Ref sig .tc := ⟨.hbm, 77, rfl⟩
abbrev main_call0_cst_0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_cst_1 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_v58 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .bf16 = 32 ∨ (Rect.block (s := S50000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .bf16 = 32 ∨ (Rect.block (s := S256x40) S256x40.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S50000x40.size a
  hwx4_2 : ∀ i : grid4.Coords, EltTy.bits .f32 = 32 ∨ (Rect.block (s := S50000x40) S2000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S50000x40.size a
  hwx5_0 : ∀ i : grid5.Coords, EltTy.bits .f32 = 32 ∨ (Rect.block (s := S50000x40) S2000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S50000x40.size a
  hwx5_2 : ∀ i : grid5.Coords, EltTy.bits .f32 = 32 ∨ (Rect.block (s := S50000x40) S2000x40.size (cc5_transform_2 i) (hinb5_2 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v57) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x800000 : Shape := ⟨2, ![1, 800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x40, .f32⟩
  | .hbm, ⟨8, _⟩ => ⟨S40, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x256, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x1, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S800000x1, .f32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S50000x40, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x40, .f32⟩
  | .hbm, ⟨69, _⟩ => ⟨S800000x1, .f32⟩
  | .hbm, ⟨70, _⟩ => ⟨S800000x40, .f32⟩
  | .hbm, ⟨71, _⟩ => ⟨S800000x40, .f32⟩
  | .hbm, ⟨72, _⟩ => ⟨S_, .f32⟩
  | .hbm, ⟨73, _⟩ => ⟨S50000x40, .f32⟩
  | .hbm, ⟨74, _⟩ => ⟨S800000x1, .i32⟩
  | .hbm, ⟨75, _⟩ => ⟨S50000x40, .f32⟩
  | .hbm, ⟨76, _⟩ => ⟨S1x40, .f32⟩
  | .hbm, ⟨77, _⟩ => ⟨S50000x40, .f32⟩
  | .hbm, ⟨78, _⟩ => ⟨S50000x40, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x40, .f32⟩
  | .hbm, ⟨86, _⟩ => ⟨S50000x40, .f32⟩
  | .hbm, ⟨87, _⟩ => ⟨S50000x40, .f32⟩
  | .hbm, ⟨88, _⟩ => ⟨S_, .f32⟩
  | .hbm, ⟨89, _⟩ => ⟨S50000, .f32⟩
  | .hbm, ⟨90, _⟩ => ⟨S50000x1, .f32⟩
  | .hbm, ⟨91, _⟩ => ⟨S50000x1, .f32⟩
  | .hbm, ⟨92, _⟩ => ⟨S50000x40, .f32⟩
  | .hbm, ⟨93, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call1_cst : Ref sig .tc := ⟨.hbm, 56, rfl⟩
abbrev main_call1_v0 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call2_cst : Ref sig .tc := ⟨.hbm, 79, rfl⟩
abbrev main_call2_v0 : Ref sig .tc := ⟨.hbm, 80, rfl⟩
abbrev main_call2_cst_0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_cst_1 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_v57 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.EndState.lean ====
/-
  The idealized kernel's run with EVERY surviving buffer named. The program is a fold through seven stretches of host
  operations and six regions; `W13` is the last boundary of that fold (each host stretch applied to the boundary before it,
  each region's arrays at what its write-backs leave). After every weakly fair execution each buffer that outlives the
  regions holds `W13`'s contents: in particular the result array, and the arguments, which nothing writes.
-/
import proofs.«145066_j11639361372218_1_alg».proof.Proof.Gen.KernelIdeal.Frame

set_option maxRecDepth 16384

noncomputable section

namespace Cert.KernelIdeal.EndState

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that outlives the regions ends
    at the last boundary's contents. -/
theorem run_end : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The same run read at the result array and at the nine arguments. -/
theorem run_result : θ_run defs (onTc (τ := τ) (main (F := F))) ⟨m, fun _ => 0, ρ⟩ (fun r => ∀ c : Dev nD,
      r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v58 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c)⟩)
    (run_end m ρ)

end Cert.KernelIdeal.EndState

end
-- ==== Proof.KHost.lean ====
/-
  The host operations that both programs apply unchanged, named once: the edge lists read off the 2×800000 index
  array, the aggregation of a layer (gather the rows of h named by the source list — a negative index counted from the
  end —, scale row e by the edge's weight, scatter-add the rows into the node named by the destination list, starting
  from zero), and the row-wise log-softmax z − max z − log ∑ exp(z − max z). They are never opened: the two programs
  are compared through them.
-/
import proofs.«145066_j11639361372218_1_alg».proof.Proof.Gen.KernelIdeal

noncomputable section

namespace Cert.KernelIdeal.Shared

open Cert.KernelIdeal Cert.KernelIdeal.Facts₀ Cert.KernelIdeal.Facts Idealize.ShloMosaic

variable {F : FTy → Type} [FloatOps F]

/-- The source list: row 0 of the edge array. -/
def srcList (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- The destination list: row 1 of the edge array. -/
def dstList (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- The source list with negative entries counted from the end, as a column of start indices. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- One layer's aggregation over 256 columns. -/
def agg256 (h : (⟨S50000x256, .f32⟩ : BufTy).Contents (Elt F)) (s d : (⟨S800000, .i32⟩ : BufTy).Contents (Elt F))
    (e : (⟨S800000, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (mulf (Host.gather gather_S50000x256_S800000x1_S800000x256_1_0_n_n_0_1_1256 h (srcCol s))
      (broadcastInDim S800000x256 ![0, 1] bcast_S800000x1_S800000x256_0_1 (broadcastInDim S800000x1 ![0] bcast_S800000_S800000x1_0 e)))

/-- The last layer's aggregation over 40 columns. -/
def agg40 (h : (⟨S50000x40, .f32⟩ : BufTy).Contents (Elt F)) (s d : (⟨S800000, .i32⟩ : BufTy).Contents (Elt F))
    (e : (⟨S800000, .f32⟩ : BufTy).Contents (Elt F)) : (⟨S50000x40, .f32⟩ : BufTy).Contents (Elt F) :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 d)
    (mulf (Host.gather gather_S50000x40_S800000x1_S800000x40_1_0_n_n_0_1_140 h (srcCol s))
      (broadcastInDim S800000x40 ![0, 1] bcast_S800000x1_S800000x40_0_1 (broadcastInDim S800000x1 ![0] bcast_S800000_S800000x1_0 e)))

/-- A row's entries minus the row's maximum. -/
def shifted (z : (⟨S50000x40, .f32⟩ : BufTy).Contents (Elt F)) : (⟨S50000x40, .f32⟩ : BufTy).Contents (Elt F) :=
  subf z (broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x40_S50000_d1 h_S_))))

/-- The row-wise log-softmax. -/
def logSoftmax (z : (⟨S50000x40, .f32⟩ : BufTy).Contents (Elt F)) : (⟨S50000x40, .f32⟩ : BufTy).Contents (Elt F) :=
  subf (shifted z) (broadcastInDim S50000x40 ![0, 1] bcast_S50000x1_S50000x40_0_1
    (Host.log (broadcastInDim S50000x1 ![0] bcast_S50000_S50000x1_0
      (Host.reduceAdd (Host.exp (shifted z)) (constant S_ .f32 0x00000000#32) reducesTo_S50000x40_S50000_d1 h_S_))))

end Cert.KernelIdeal.Shared

end
-- ==== Proof.Spec.lean ====
/-
  The stages of a graph-convolution layer that the two programs compute differently, each as ONE function of whole
  arrays on the extended reals, index by index: a dense product (entry (p, q) is ∑ₖ x (p, k) · w (k, q)), a bias row
  added to every row, and the same followed by the positive part max(·, 0). The gather, the edge weighting and the
  scatter-add between them are the same host operations in both programs and are never opened.
-/
import Idealize.ShloMosaic.Lib.ValueIdx
import Idealize.ShloMosaic.PureOps.Ideal

noncomputable section

namespace Cert.Gcn

open Idealize.ShloMosaic Idealize.ShloMosaic.ValueIdx

variable {M K N : ℕ}

/-- Row `p` of `x` against column `q` of `w`. -/
def denseAt (x : (⟨2, ![M, K]⟩ : Shape).Idx → EReal) (w : (⟨2, ![K, N]⟩ : Shape).Idx → EReal) (p : Fin M) (q : Fin N) : EReal :=
  ∑ k : Fin K, x (ix2 p k) * w (ix2 k q)

/-- The dense product `x · w` of an M×K by a K×N array. -/
def dense (x : (⟨2, ![M, K]⟩ : Shape).Idx → EReal) (w : (⟨2, ![K, N]⟩ : Shape).Idx → EReal) : (⟨2, ![M, N]⟩ : Shape).Idx → EReal :=
  fun i => denseAt x w ⟨(i 0).val, (i 0).isLt⟩ ⟨(i 1).val, (i 1).isLt⟩

theorem dense_ix2 (x : (⟨2, ![M, K]⟩ : Shape).Idx → EReal) (w : (⟨2, ![K, N]⟩ : Shape).Idx → EReal) (p : Fin M) (q : Fin N) :
    dense x w (ix2 p q) = denseAt x w p q := rfl

/-- An index is the pair of its coordinates. -/
theorem eq_ix2_of (i : (⟨2, ![M, N]⟩ : Shape).Idx) (p : Fin M) (q : Fin N) (h0 : (i 0).val = p.val) (h1 : (i 1).val = q.val) :
    i = ix2 p q := by
  funext a
  apply Fin.ext
  match a with
  | ⟨0, _⟩ => exact h0
  | ⟨1, _⟩ => exact h1

/-- The dense product at an index whose coordinates are (p, q). -/
theorem dense_at (x : (⟨2, ![M, K]⟩ : Shape).Idx → EReal) (w : (⟨2, ![K, N]⟩ : Shape).Idx → EReal) (i : (⟨2, ![M, N]⟩ : Shape).Idx)
    (p : Fin M) (q : Fin N) (h0 : (i 0).val = p.val) (h1 : (i 1).val = q.val) : dense x w i = denseAt x w p q := by
  rw [eq_ix2_of i p q h0 h1]; rfl

/-- The bias row `b` (a 1×N array) added to every row of `a`. -/
def bias (a : (⟨2, ![M, N]⟩ : Shape).Idx → EReal) (b : (⟨2, ![1, N]⟩ : Shape).Idx → EReal) : (⟨2, ![M, N]⟩ : Shape).Idx → EReal :=
  fun i => a i + b (ix2 (0 : Fin 1) ⟨(i 1).val, (i 1).isLt⟩)

theorem bias_ix2 (a : (⟨2, ![M, N]⟩ : Shape).Idx → EReal) (b : (⟨2, ![1, N]⟩ : Shape).Idx → EReal) (p : Fin M) (q : Fin N) :
    bias a b (ix2 p q) = a (ix2 p q) + b (ix2 (0 : Fin 1) q) := rfl

/-- The bias row added to every row, then the positive part. -/
def biasRelu (a : (⟨2, ![M, N]⟩ : Shape).Idx → EReal) (b : (⟨2, ![1, N]⟩ : Shape).Idx → EReal) : (⟨2, ![M, N]⟩ : Shape).Idx → EReal :=
  fun i => max (bias a b i) 0

theorem biasRelu_ix2 (a : (⟨2, ![M, N]⟩ : Shape).Idx → EReal) (b : (⟨2, ![1, N]⟩ : Shape).Idx → EReal) (p : Fin M) (q : Fin N) :
    biasRelu a b (ix2 p q) = max (a (ix2 p q) + b (ix2 (0 : Fin 1) q)) 0 := rfl

/-- The biased array at an index whose coordinates are (p, q). -/
theorem bias_at (a : (⟨2, ![M, N]⟩ : Shape).Idx → EReal) (b : (⟨2, ![1, N]⟩ : Shape).Idx → EReal) (i : (⟨2, ![M, N]⟩ : Shape).Idx)
    (p : Fin M) (q : Fin N) (h0 : (i 0).val = p.val) (h1 : (i 1).val = q.val) : bias a b i = a i + b (ix2 (0 : Fin 1) q) := by
  rw [eq_ix2_of i p q h0 h1]; rfl

/-- The same with the positive part. -/
theorem biasRelu_at (a : (⟨2, ![M, N]⟩ : Shape).Idx → EReal) (b : (⟨2, ![1, N]⟩ : Shape).Idx → EReal) (i : (⟨2, ![M, N]⟩ : Shape).Idx)
    (p : Fin M) (q : Fin N) (h0 : (i 0).val = p.val) (h1 : (i 1).val = q.val) : biasRelu a b i = max (a i + b (ix2 (0 : Fin 1) q)) 0 := by
  rw [eq_ix2_of i p q h0 h1]; rfl

end Cert.Gcn

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.Net.lean ====
/-
  The network both programs compute, as ONE function of the nine argument arrays on the extended reals: three
  graph-convolution layers — a dense product, the aggregation over the edges, a bias row, and for the first two the
  positive part — and a row-wise log-softmax. The dense product, the bias and the positive part are the index-by-index
  functions of `Cert.Gcn`; the aggregation and the log-softmax are the host operations' own terms, carried unopened.
-/
import proofs.«145066_j11639361372218_1_alg».proof.Proof.KHost
import proofs.«145066_j11639361372218_1_alg».proof.Proof.Spec
import proofs.«145066_j11639361372218_1_alg».proof.Proof.LibRowBias

noncomputable section

namespace Cert.KernelIdeal.Net

open Cert.KernelIdeal Idealize.ShloMosaic Cert.LibRowBias

/-- A hidden layer: max(agg(h · W) + b, 0), h of width K. -/
def hidden {K : ℕ} (h : (⟨2, ![50000, K]⟩ : Shape).Idx → EReal) (w : (⟨2, ![K, 256]⟩ : Shape).Idx → EReal)
    (b : (⟨1, ![256]⟩ : Shape).Idx → EReal)
    (x1 : (⟨S2x800000, .i32⟩ : BufTy).Contents (Elt Ideal)) (x2 : (⟨S800000, .f32⟩ : BufTy).Contents (Elt Ideal)) :
    (⟨2, ![50000, 256]⟩ : Shape).Idx → EReal :=
  Cert.Gcn.biasRelu (M := 50000) (N := 256)
    (Shared.agg256 (F := Ideal) (Cert.Gcn.dense (M := 50000) (K := K) (N := 256) h w) (Shared.srcList (F := Ideal) x1) (Shared.dstList (F := Ideal) x1) x2)
    (rowOf b)

/-- The last layer before the log-softmax: agg(h · W) + b, 40 columns wide. -/
def logits (h : (⟨2, ![50000, 256]⟩ : Shape).Idx → EReal) (w : (⟨2, ![256, 40]⟩ : Shape).Idx → EReal)
    (b : (⟨1, ![40]⟩ : Shape).Idx → EReal)
    (x1 : (⟨S2x800000, .i32⟩ : BufTy).Contents (Elt Ideal)) (x2 : (⟨S800000, .f32⟩ : BufTy).Contents (Elt Ideal)) :
    (⟨2, ![50000, 40]⟩ : Shape).Idx → EReal :=
  Cert.Gcn.bias (M := 50000) (N := 40)
    (Shared.agg40 (F := Ideal) (Cert.Gcn.dense (M := 50000) (K := 256) (N := 40) h w) (Shared.srcList (F := Ideal) x1) (Shared.dstList (F := Ideal) x1) x2)
    (rowOf b)

/-- The network: log_softmax(logits(hidden(hidden(x)))). -/
def out (x0 : (⟨2, ![50000, 128]⟩ : Shape).Idx → EReal)
    (x1 : (⟨S2x800000, .i32⟩ : BufTy).Contents (Elt Ideal)) (x2 : (⟨S800000, .f32⟩ : BufTy).Contents (Elt Ideal))
    (x3 : (⟨2, ![128, 256]⟩ : Shape).Idx → EReal) (x4 : (⟨1, ![256]⟩ : Shape).Idx → EReal)
    (x5 : (⟨2, ![256, 256]⟩ : Shape).Idx → EReal) (x6 : (⟨1, ![256]⟩ : Shape).Idx → EReal)
    (x7 : (⟨2, ![256, 40]⟩ : Shape).Idx → EReal) (x8 : (⟨1, ![40]⟩ : Shape).Idx → EReal) :
    (⟨2, ![50000, 40]⟩ : Shape).Idx → EReal :=
  Shared.logSoftmax (F := Ideal) (logits (hidden (hidden x0 x3 x4 x1 x2) x5 x6 x1 x2) x7 x8 x1 x2)

end Cert.KernelIdeal.Net

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.DenseA.lean ====
/-
  Region 0: the first layer's dense product, x (50000×128) · W1 (128×256).
  The region's grid has 25 points; point t stages rows 2000·t … 2000·t + 1999 of the left array and the whole right
  array, multiplies them into a zero accumulator, and writes the product back as rows 2000·t … 2000·t + 1999 of the
  result. Entry (p, q) of a point's product is ∑ₖ (left block) (p, k) · (right) (k, q); the blocks tile the result, so
  after the last point the result array is the dense product of the two arrays as the region found them.
-/
import proofs.«145066_j11639361372218_1_alg».proof.Proof.Gen.KernelIdeal.Frame
import proofs.«145066_j11639361372218_1_alg».proof.Proof.LibDense
import proofs.«145066_j11639361372218_1_alg».proof.Proof.Spec
import Idealize.ShloMosaic.Lib.Pipeline.Value
import Idealize.ShloMosaic.Lib.ValueIdx

noncomputable section

namespace Cert.KernelIdeal.DenseA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product, at entry (p, q) of the point's block: row p of the left block against column q of the right. -/
theorem pay_at (x0 : Vec Ideal S2000x128 .bf16) (x1 : Vec Ideal S128x256 .bf16) (p : Fin 2000) (q : Fin 256) :
    k0_pay1 (F := Ideal) x0 x1 (ix2 p q) = ∑ k : Fin 128, x0 (ix2 p k) * x1 (ix2 k q) := by
  unfold k0_pay1
  simp only [shapeCast_self]
  exact Cert.LibDense.plain_matmul_apply (M := 2000) (K := 128) (N := 256) none x0 x1 p q

/-- Where the three windows' blocks sit at point t: the left and the result move down with t, the right stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t is rows 2000·t … of the left array. -/
theorem left_block (c : Dev nD) (t : Fin cfg0.N) (x : S2000x128.Idx) (i : S50000x128.Idx)
    (h0 : (i 0).val = 2000 * t.val + (x 0).val) (h1 : (i 1).val = (x 1).val) :
    (iblk0 V c 0 t : Vec Ideal S2000x128 .bf16) x = (V c main_v4 : S50000x128.Idx → EReal) i := by
  obtain ⟨e0, e1, -⟩ := idx_facts t
  unfold iblk0
  rw [View.read_apply]
  show V c main_v4 _ = V c main_v4 _
  congr 1
  funext a
  apply Fin.ext
  match a with
  | ⟨0, _⟩ => show win0_0.index t 0 * 2000 + 1 * (x 0).val = (i 0).val; rw [e0, h0]; omega
  | ⟨1, _⟩ => show win0_0.index t 1 * 128 + 1 * (x 1).val = (i 1).val; rw [e1, h1]; omega

/-- The right block at every point is the whole right array. -/
theorem right_block (c : Dev nD) (t : Fin cfg0.N) (x : S128x256.Idx) :
    (iblk0 V c 1 t : Vec Ideal S128x256 .bf16) x = (V c main_v5 : S128x256.Idx → EReal) x := by
  obtain ⟨-, -, e2, e3, -⟩ := idx_facts t
  unfold iblk0
  rw [View.read_apply]
  show V c main_v5 _ = V c main_v5 _
  congr 1
  funext a
  apply Fin.ext
  match a with
  | ⟨0, _⟩ => show win0_1.index t 0 * 128 + 1 * (x 0).val = (x 0).val; rw [e2]; omega
  | ⟨1, _⟩ => show win0_1.index t 1 * 256 + 1 * (x 1).val = (x 1).val; rw [e3]; omega

/-- What point t writes back is block t of the dense product of the arrays as the region found them. -/
theorem flushed_eq (c : Dev nD) (t : Fin cfg0.N) :
    (dat0 V c).flushed 2 t = ((cfg0.win 2).blk t).view.read (Elt Ideal)
      (Cert.Gcn.dense (M := 50000) (K := 128) (N := 256) (V c main_v4) (V c main_v5)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨-, -, -, -, e4, e5⟩ := idx_facts t
  have hN : cfg0.N = 25 := N_0
  have ht : t.val < 25 := hN ▸ t.isLt
  funext j
  obtain ⟨p, q, rfl⟩ : ∃ (p : Fin 2000) (q : Fin 256), j = ix2 p q := ⟨j 0, j 1, eq_ix2 j⟩
  show k0_pay1 (iblk0 V c 0 t) (iblk0 V c 1 t) (ix2 p q)
    = Cert.Gcn.dense (M := 50000) (K := 128) (N := 256) (V c main_v4) (V c main_v5) (((cfg0.win 2).blk t).view.emb (ix2 p q))
  have hi0 : ((((cfg0.win 2).blk t).view.emb (ix2 p q)) 0).val = 2000 * t.val + p.val := by
    show win0_2.index t (0 : Fin 2) * 2000 + 1 * p.val = _; rw [e4]; omega
  have hi1 : ((((cfg0.win 2).blk t).view.emb (ix2 p q)) 1).val = q.val := by
    show win0_2.index t (1 : Fin 2) * 256 + 1 * q.val = _; rw [e5]; omega
  refine (pay_at (iblk0 V c 0 t) (iblk0 V c 1 t) p q).trans ?_
  refine Eq.trans ?_ (Cert.Gcn.dense_at (M := 50000) (K := 128) (N := 256) (V c main_v4) (V c main_v5) _
    ⟨2000 * t.val + p.val, by omega⟩ q hi0 hi1).symm
  unfold Cert.Gcn.denseAt
  refine Finset.sum_congr rfl fun k _ => ?_
  exact congrArg₂ (· * ·) (left_block V c t (ix2 p k) (ix2 ⟨2000 * t.val + p.val, by omega⟩ k) rfl rfl)
    (right_block V c t (ix2 k q))

/-- An index of the result is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v6).slice (win0_2.rect t)).set ↔ _
  rw [View.set_slice_whole, Rect.mem_set_unit]
  exact Iff.rfl

/-- After the region the result array is the dense product of the two arrays as the region found them: row r is
    written by point r / 2000. -/
theorem final (c : Dev nD) :
    (dat0 V c).arrAt 2 cfg0.N = Cert.Gcn.dense (M := 50000) (K := 128) (N := 256) (V c main_v4) (V c main_v5) :=
  (dat0 V c).arrAt_eq_of_cover 2 _ (fun t _ => flushed_eq V c t) fun i => by
    have hN : cfg0.N = 25 := N_0
    have hi0 : (i 0).val < 50000 := (i 0).isLt
    have hi1 : (i 1).val < 256 := (i 1).isLt
    have hlt : (i 0).val / 2000 < cfg0.N := by rw [hN]; omega
    refine ⟨⟨(i 0).val / 2000, hlt⟩, flush0_2 _, ?_⟩
    rw [mem_blk]
    obtain ⟨-, -, -, -, e4, e5⟩ := idx_facts ⟨(i 0).val / 2000, hlt⟩
    intro a
    match a with
    | ⟨0, _⟩ =>
      show win0_2.index ⟨(i 0).val / 2000, hlt⟩ (0 : Fin 2) * 2000 ≤ (i 0).val ∧ (i 0).val < win0_2.index ⟨(i 0).val / 2000, hlt⟩ (0 : Fin 2) * 2000 + 2000
      rw [e4]; show (i 0).val / 2000 * 2000 ≤ (i 0).val ∧ (i 0).val < (i 0).val / 2000 * 2000 + 2000; omega
    | ⟨1, _⟩ =>
      show win0_2.index ⟨(i 0).val / 2000, hlt⟩ (1 : Fin 2) * 256 ≤ (i 1).val ∧ (i 1).val < win0_2.index ⟨(i 0).val / 2000, hlt⟩ (1 : Fin 2) * 256 + 256
      rw [e5]; omega

end Cert.KernelIdeal.DenseA

end
-- ==== Proof.DenseB.lean ====
/-
  Region 2: the second layer's dense product, h1 (50000×256) · W2 (256×256).
  The region's grid has 25 points; point t stages rows 2000·t … 2000·t + 1999 of the left array and the whole right
  array, multiplies them into a zero accumulator, and writes the product back as rows 2000·t … 2000·t + 1999 of the
  result. Entry (p, q) of a point's product is ∑ₖ (left block) (p, k) · (right) (k, q); the blocks tile the result, so
  after the last point the result array is the dense product of the two arrays as the region found them.
-/
import proofs.«145066_j11639361372218_1_alg».proof.Proof.Gen.KernelIdeal.Frame
import proofs.«145066_j11639361372218_1_alg».proof.Proof.LibDense
import proofs.«145066_j11639361372218_1_alg».proof.Proof.Spec
import Idealize.ShloMosaic.Lib.Pipeline.Value
import Idealize.ShloMosaic.Lib.ValueIdx

noncomputable section

namespace Cert.KernelIdeal.DenseB

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product, at entry (p, q) of the point's block: row p of the left block against column q of the right. -/
theorem pay_at (x0 : Vec Ideal S2000x256 .bf16) (x1 : Vec Ideal S256x256 .bf16) (p : Fin 2000) (q : Fin 256) :
    k2_pay1 (F := Ideal) x0 x1 (ix2 p q) = ∑ k : Fin 256, x0 (ix2 p k) * x1 (ix2 k q) := by
  unfold k2_pay1
  simp only [shapeCast_self]
  exact Cert.LibDense.plain_matmul_apply (M := 2000) (K := 256) (N := 256) none x0 x1 p q

/-- Where the three windows' blocks sit at point t: the left and the result move down with t, the right stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point t is rows 2000·t … of the left array. -/
theorem left_block (c : Dev nD) (t : Fin cfg2.N) (x : S2000x256.Idx) (i : S50000x256.Idx)
    (h0 : (i 0).val = 2000 * t.val + (x 0).val) (h1 : (i 1).val = (x 1).val) :
    (iblk2 V c 0 t : Vec Ideal S2000x256 .bf16) x = (V c main_v22 : S50000x256.Idx → EReal) i := by
  obtain ⟨e0, e1, -⟩ := idx_facts t
  unfold iblk2
  rw [View.read_apply]
  show V c main_v22 _ = V c main_v22 _
  congr 1
  funext a
  apply Fin.ext
  match a with
  | ⟨0, _⟩ => show win2_0.index t 0 * 2000 + 1 * (x 0).val = (i 0).val; rw [e0, h0]; omega
  | ⟨1, _⟩ => show win2_0.index t 1 * 256 + 1 * (x 1).val = (i 1).val; rw [e1, h1]; omega

/-- The right block at every point is the whole right array. -/
theorem right_block (c : Dev nD) (t : Fin cfg2.N) (x : S256x256.Idx) :
    (iblk2 V c 1 t : Vec Ideal S256x256 .bf16) x = (V c main_v23 : S256x256.Idx → EReal) x := by
  obtain ⟨-, -, e2, e3, -⟩ := idx_facts t
  unfold iblk2
  rw [View.read_apply]
  show V c main_v23 _ = V c main_v23 _
  congr 1
  funext a
  apply Fin.ext
  match a with
  | ⟨0, _⟩ => show win2_1.index t 0 * 256 + 1 * (x 0).val = (x 0).val; rw [e2]; omega
  | ⟨1, _⟩ => show win2_1.index t 1 * 256 + 1 * (x 1).val = (x 1).val; rw [e3]; omega

/-- What point t writes back is block t of the dense product of the arrays as the region found them. -/
theorem flushed_eq (c : Dev nD) (t : Fin cfg2.N) :
    (dat2 V c).flushed 2 t = ((cfg2.win 2).blk t).view.read (Elt Ideal)
      (Cert.Gcn.dense (M := 50000) (K := 256) (N := 256) (V c main_v22) (V c main_v23)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  obtain ⟨-, -, -, -, e4, e5⟩ := idx_facts t
  have hN : cfg2.N = 25 := N_2
  have ht : t.val < 25 := hN ▸ t.isLt
  funext j
  obtain ⟨p, q, rfl⟩ : ∃ (p : Fin 2000) (q : Fin 256), j = ix2 p q := ⟨j 0, j 1, eq_ix2 j⟩
  show k2_pay1 (iblk2 V c 0 t) (iblk2 V c 1 t) (ix2 p q)
    = Cert.Gcn.dense (M := 50000) (K := 256) (N := 256) (V c main_v22) (V c main_v23) (((cfg2.win 2).blk t).view.emb (ix2 p q))
  have hi0 : ((((cfg2.win 2).blk t).view.emb (ix2 p q)) 0).val = 2000 * t.val + p.val := by
    show win2_2.index t (0 : Fin 2) * 2000 + 1 * p.val = _; rw [e4]; omega
  have hi1 : ((((cfg2.win 2).blk t).view.emb (ix2 p q)) 1).val = q.val := by
    show win2_2.index t (1 : Fin 2) * 256 + 1 * q.val = _; rw [e5]; omega
  refine (pay_at (iblk2 V c 0 t) (iblk2 V c 1 t) p q).trans ?_
  refine Eq.trans ?_ (Cert.Gcn.dense_at (M := 50000) (K := 256) (N := 256) (V c main_v22) (V c main_v23) _
    ⟨2000 * t.val + p.val, by omega⟩ q hi0 hi1).symm
  unfold Cert.Gcn.denseAt
  refine Finset.sum_congr rfl fun k _ => ?_
  exact congrArg₂ (· * ·) (left_block V c t (ix2 p k) (ix2 ⟨2000 * t.val + p.val, by omega⟩ k) rfl rfl)
    (right_block V c t (ix2 k q))

/-- An index of the result is in point t's block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v24).slice (win2_2.rect t)).set ↔ _
  rw [View.set_slice_whole, Rect.mem_set_unit]
  exact Iff.rfl

/-- After the region the result array is the dense product of the two arrays as the region found them: row r is
    written by point r / 2000. -/
theorem final (c : Dev nD) :
    (dat2 V c).arrAt 2 cfg2.N = Cert.Gcn.dense (M := 50000) (K := 256) (N := 256) (V c main_v22) (V c main_v23) :=
  (dat2 V c).arrAt_eq_of_cover 2 _ (fun t _ => flushed_eq V c t) fun i => by
    have hN : cfg2.N = 25 := N_2
    have hi0 : (i 0).val < 50000 := (i 0).isLt
    have hi1 : (i 1).val < 256 := (i 1).isLt
    have hlt : (i 0).val / 2000 < cfg2.N := by rw [hN]; omega
    refine ⟨⟨(i 0).val / 2000, hlt⟩, flush2_2 _, ?_⟩
    rw [mem_blk]
    obtain ⟨-, -, -, -, e4, e5⟩ := idx_facts ⟨(i 0).val / 2000, hlt⟩
    intro a
    match a with
    | ⟨0, _⟩ =>
      show win2_2.index ⟨(i 0).val / 2000, hlt⟩ (0 : Fin 2) * 2000 ≤ (i 0).val ∧ (i 0).val < win2_2.index ⟨(i 0).val / 2000, hlt⟩ (0 : Fin 2) * 2000 + 2000
      rw [e4]; show (i 0).val / 2000 * 2000 ≤ (i 0).val ∧ (i 0).val < (i 0).val / 2000 * 2000 + 2000; omega
    | ⟨1, _⟩ =>
      show win2_2.index ⟨(i 0).val / 2000, hlt⟩ (1 : Fin 2) * 256 ≤ (i 1).val ∧ (i 1).val < win2_2.index ⟨(i 0).val / 2000, hlt⟩ (1 : Fin 2) * 256 + 256
      rw [e5]; omega

end Cert.KernelIdeal.DenseB

end
-- ==== Proof.DenseC.lean ====
/-
  Region 4: the third layer's dense product, h2 (50000×256) · W3 (256×40).
  The region's grid has 25 points; point t stages rows 2000·t … 2000·t + 1999 of the left array and the whole right
  array, multiplies them into a zero accumulator, and writes the product back as rows 2000·t … 2000·t + 1999 of the
  result. Entry (p, q) of a point's product is ∑ₖ (left block) (p, k) · (right) (k, q); the blocks tile the result, so
  after the last point the result array is the dense product of the two arrays as the region found them.
-/
import proofs.«145066_j11639361372218_1_alg».proof.Proof.Gen.KernelIdeal.Frame
import proofs.«145066_j11639361372218_1_alg».proof.Proof.LibDense
import proofs.«145066_j11639361372218_1_alg».proof.Proof.Spec
import Idealize.ShloMosaic.Lib.Pipeline.Value
import Idealize.ShloMosaic.Lib.ValueIdx

noncomputable section

namespace Cert.KernelIdeal.DenseC

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product, at entry (p, q) of the point's block: row p of the left block against column q of the right. -/
theorem pay_at (x0 : Vec Ideal S2000x256 .bf16) (x1 : Vec Ideal S256x40 .bf16) (p : Fin 2000) (q : Fin 40) :
    k4_pay1 (F := Ideal) x0 x1 (ix2 p q) = ∑ k : Fin 256, x0 (ix2 p k) * x1 (ix2 k q) := by
  unfold k4_pay1
  simp only [shapeCast_self]
  exact Cert.LibDense.plain_matmul_apply (M := 2000) (K := 256) (N := 40) none x0 x1 p q

/-- Where the three windows' blocks sit at point t: the left and the result move down with t, the right stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left block at point t is rows 2000·t … of the left array. -/
theorem left_block (c : Dev nD) (t : Fin cfg4.N) (x : S2000x256.Idx) (i : S50000x256.Idx)
    (h0 : (i 0).val = 2000 * t.val + (x 0).val) (h1 : (i 1).val = (x 1).val) :
    (iblk4 V c 0 t : Vec Ideal S2000x256 .bf16) x = (V c main_v40 : S50000x256.Idx → EReal) i := by
  obtain ⟨e0, e1, -⟩ := idx_facts t
  unfold iblk4
  rw [View.read_apply]
  show V c main_v40 _ = V c main_v40 _
  congr 1
  funext a
  apply Fin.ext
  match a with
  | ⟨0, _⟩ => show win4_0.index t 0 * 2000 + 1 * (x 0).val = (i 0).val; rw [e0, h0]; omega
  | ⟨1, _⟩ => show win4_0.index t 1 * 256 + 1 * (x 1).val = (i 1).val; rw [e1, h1]; omega

/-- The right block at every point is the whole right array. -/
theorem right_block (c : Dev nD) (t : Fin cfg4.N) (x : S256x40.Idx) :
    (iblk4 V c 1 t : Vec Ideal S256x40 .bf16) x = (V c main_v41 : S256x40.Idx → EReal) x := by
  obtain ⟨-, -, e2, e3, -⟩ := idx_facts t
  unfold iblk4
  rw [View.read_apply]
  show V c main_v41 _ = V c main_v41 _
  congr 1
  funext a
  apply Fin.ext
  match a with
  | ⟨0, _⟩ => show win4_1.index t 0 * 256 + 1 * (x 0).val = (x 0).val; rw [e2]; omega
  | ⟨1, _⟩ => show win4_1.index t 1 * 40 + 1 * (x 1).val = (x 1).val; rw [e3]; omega

/-- What point t writes back is block t of the dense product of the arrays as the region found them. -/
theorem flushed_eq (c : Dev nD) (t : Fin cfg4.N) :
    (dat4 V c).flushed 2 t = ((cfg4.win 2).blk t).view.read (Elt Ideal)
      (Cert.Gcn.dense (M := 50000) (K := 256) (N := 40) (V c main_v40) (V c main_v41)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x40) hz]
  obtain ⟨-, -, -, -, e4, e5⟩ := idx_facts t
  have hN : cfg4.N = 25 := N_4
  have ht : t.val < 25 := hN ▸ t.isLt
  funext j
  obtain ⟨p, q, rfl⟩ : ∃ (p : Fin 2000) (q : Fin 40), j = ix2 p q := ⟨j 0, j 1, eq_ix2 j⟩
  show k4_pay1 (iblk4 V c 0 t) (iblk4 V c 1 t) (ix2 p q)
    = Cert.Gcn.dense (M := 50000) (K := 256) (N := 40) (V c main_v40) (V c main_v41) (((cfg4.win 2).blk t).view.emb (ix2 p q))
  have hi0 : ((((cfg4.win 2).blk t).view.emb (ix2 p q)) 0).val = 2000 * t.val + p.val := by
    show win4_2.index t (0 : Fin 2) * 2000 + 1 * p.val = _; rw [e4]; omega
  have hi1 : ((((cfg4.win 2).blk t).view.emb (ix2 p q)) 1).val = q.val := by
    show win4_2.index t (1 : Fin 2) * 40 + 1 * q.val = _; rw [e5]; omega
  refine (pay_at (iblk4 V c 0 t) (iblk4 V c 1 t) p q).trans ?_
  refine Eq.trans ?_ (Cert.Gcn.dense_at (M := 50000) (K := 256) (N := 40) (V c main_v40) (V c main_v41) _
    ⟨2000 * t.val + p.val, by omega⟩ q hi0 hi1).symm
  unfold Cert.Gcn.denseAt
  refine Finset.sum_congr rfl fun k _ => ?_
  exact congrArg₂ (· * ·) (left_block V c t (ix2 p k) (ix2 ⟨2000 * t.val + p.val, by omega⟩ k) rfl rfl)
    (right_block V c t (ix2 k q))

/-- An index of the result is in point t's block iff each coordinate is in the block's range on its axis. -/
theorem mem_blk (t : Fin cfg4.N) (i : S50000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v42).slice (win4_2.rect t)).set ↔ _
  rw [View.set_slice_whole, Rect.mem_set_unit]
  exact Iff.rfl

/-- After the region the result array is the dense product of the two arrays as the region found them: row r is
    written by point r / 2000. -/
theorem final (c : Dev nD) :
    (dat4 V c).arrAt 2 cfg4.N = Cert.Gcn.dense (M := 50000) (K := 256) (N := 40) (V c main_v40) (V c main_v41) :=
  (dat4 V c).arrAt_eq_of_cover 2 _ (fun t _ => flushed_eq V c t) fun i => by
    have hN : cfg4.N = 25 := N_4
    have hi0 : (i 0).val < 50000 := (i 0).isLt
    have hi1 : (i 1).val < 40 := (i 1).isLt
    have hlt : (i 0).val / 2000 < cfg4.N := by rw [hN]; omega
    refine ⟨⟨(i 0).val / 2000, hlt⟩, flush4_2 _, ?_⟩
    rw [mem_blk]
    obtain ⟨-, -, -, -, e4, e5⟩ := idx_facts ⟨(i 0).val / 2000, hlt⟩
    intro a
    match a with
    | ⟨0, _⟩ =>
      show win4_2.index ⟨(i 0).val / 2000, hlt⟩ (0 : Fin 2) * 2000 ≤ (i 0).val ∧ (i 0).val < win4_2.index ⟨(i 0).val / 2000, hlt⟩ (0 : Fin 2) * 2000 + 2000
      rw [e4]; show (i 0).val / 2000 * 2000 ≤ (i 0).val ∧ (i 0).val < (i 0).val / 2000 * 2000 + 2000; omega
    | ⟨1, _⟩ =>
      show win4_2.index ⟨(i 0).val / 2000, hlt⟩ (1 : Fin 2) * 40 ≤ (i 1).val ∧ (i 1).val < win4_2.index ⟨(i 0).val / 2000, hlt⟩ (1 : Fin 2) * 40 + 40
      rw [e5]; omega

end Cert.KernelIdeal.DenseC

end
-- ==== Proof.BiasA.lean ====
/-
  Region 1: the first layer's bias and positive part, max(agg + b1, 0), over a 50000×256 array.
  The region's grid has 25 points; point t stages rows 2000·t … 2000·t + 1999 of the aggregated array and the one bias
  row, adds the row to every staged row, takes the positive part, and writes the block back at the same rows of the result. The
  blocks tile the result, so after the last point the result array is the bias added along rows followed by max(·, 0), of the
  arrays as the region found them.
-/
import proofs.«145066_j11639361372218_1_alg».proof.Proof.Gen.KernelIdeal.Frame
import proofs.«145066_j11639361372218_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BiasA

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at entry (p, q) of the point's block: the staged entry plus the bias row's entry q, or 0 if that is negative. -/
theorem pay_at (x0 : Vec Ideal S2000x256 .f32) (x1 : Vec Ideal S1x256 .f32) (p : Fin 2000) (q : Fin 256) :
    k1_pay1 (F := Ideal) x0 x1 (ix2 p q) = max (x0 (ix2 p q) + x1 (ix2 (0 : Fin 1) q)) 0 := by
  unfold k1_pay1
  simp only [shapeCast_self]
  show max (x0 (ix2 p q) + broadcastTo S2000x256 x1 broadcasts_S1x256_S2000x256 (ix2 p q)) (Ideal.ofBits .f32 0x00000000#32) = _
  rw [broadcastTo_1b_ab_apply x1 broadcasts_S1x256_S2000x256 p q, Ideal.ofBits_zero_f32]

/-- Where the three windows' blocks sit at point t: the staged rows and the result move down with t, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged block at point t is rows 2000·t … of the aggregated array. -/
theorem main_block (c : Dev nD) (t : Fin cfg1.N) (x : S2000x256.Idx) (i : S50000x256.Idx)
    (h0 : (i 0).val = 2000 * t.val + (x 0).val) (h1 : (i 1).val = (x 1).val) :
    (iblk1 V c 0 t : Vec Ideal S2000x256 .f32) x = (V c main_v19 : S50000x256.Idx → EReal) i := by
  obtain ⟨e0, e1, -⟩ := idx_facts t
  unfold iblk1
  rw [View.read_apply]
  show V c main_v19 _ = V c main_v19 _
  congr 1
  funext a
  apply Fin.ext
  match a with
  | ⟨0, _⟩ => show win1_0.index t 0 * 2000 + 1 * (x 0).val = (i 0).val; rw [e0, h0]; omega
  | ⟨1, _⟩ => show win1_0.index t 1 * 256 + 1 * (x 1).val = (i 1).val; rw [e1, h1]; omega

/-- The bias window's block at every point is the whole bias row. -/
theorem row_block (c : Dev nD) (t : Fin cfg1.N) (x : S1x256.Idx) :
    (iblk1 V c 1 t : Vec Ideal S1x256 .f32) x = (V c main_v20 : S1x256.Idx → EReal) x := by
  obtain ⟨-, -, e2, e3, -⟩ := idx_facts t
  unfold iblk1
  rw [View.read_apply]
  show V c main_v20 _ = V c main_v20 _
  congr 1
  funext a
  apply Fin.ext
  match a with
  | ⟨0, _⟩ => show win1_1.index t 0 * 1 + 1 * (x 0).val = (x 0).val; rw [e2]; omega
  | ⟨1, _⟩ => show win1_1.index t 1 * 256 + 1 * (x 1).val = (x 1).val; rw [e3]; omega

/-- What point t writes back is block t of the biased array. -/
theorem flushed_eq (c : Dev nD) (t : Fin cfg1.N) :
    (dat1 V c).flushed 2 t = ((cfg1.win 2).blk t).view.read (Elt Ideal)
      (Cert.Gcn.biasRelu (M := 50000) (N := 256) (V c main_v19) (V c main_v20)) := by
  show (cfg1.win 2).cut (grid1.coords t) ((dat1 V c).after 2 t) = _
  rw [after1_2]
  unfold out1_2
  rw [View.canon_unit_zero hz]
  simp only [View.ld_unit_zero (S := S2000x256) hz, View.ld_unit_zero (S := S1x256) hz]
  obtain ⟨-, -, -, -, e4, e5⟩ := idx_facts t
  have hN : cfg1.N = 25 := N_1
  have ht : t.val < 25 := hN ▸ t.isLt
  funext j
  obtain ⟨p, q, rfl⟩ : ∃ (p : Fin 2000) (q : Fin 256), j = ix2 p q := ⟨j 0, j 1, eq_ix2 j⟩
  show k1_pay1 (iblk1 V c 0 t) (iblk1 V c 1 t) (ix2 p q)
    = Cert.Gcn.biasRelu (M := 50000) (N := 256) (V c main_v19) (V c main_v20) (((cfg1.win 2).blk t).view.emb (ix2 p q))
  have hi0 : ((((cfg1.win 2).blk t).view.emb (ix2 p q)) 0).val = 2000 * t.val + p.val := by
    show win1_2.index t (0 : Fin 2) * 2000 + 1 * p.val = _; rw [e4]; omega
  have hi1 : ((((cfg1.win 2).blk t).view.emb (ix2 p q)) 1).val = q.val := by
    show win1_2.index t (1 : Fin 2) * 256 + 1 * q.val = _; rw [e5]; omega
  refine (pay_at (iblk1 V c 0 t) (iblk1 V c 1 t) p q).trans ?_
  refine Eq.trans ?_ (Cert.Gcn.biasRelu_at (M := 50000) (N := 256) (V c main_v19) (V c main_v20) _
    ⟨2000 * t.val + p.val, by omega⟩ q hi0 hi1).symm
  exact congrArg (fun z : EReal => max z 0) (congrArg₂ (· + ·) (main_block V c t (ix2 p q) _ hi0 hi1) (row_block V c t (ix2 (0 : Fin 1) q)))

/-- An index of the result is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v21).slice (win1_2.rect t)).set ↔ _
  rw [View.set_slice_whole, Rect.mem_set_unit]
  exact Iff.rfl

/-- After the region the result array is the biased array with its positive part taken: row r is written by point r / 2000. -/
theorem final (c : Dev nD) :
    (dat1 V c).arrAt 2 cfg1.N = Cert.Gcn.biasRelu (M := 50000) (N := 256) (V c main_v19) (V c main_v20) :=
  (dat1 V c).arrAt_eq_of_cover 2 _ (fun t _ => flushed_eq V c t) fun i => by
    have hN : cfg1.N = 25 := N_1
    have hi0 : (i 0).val < 50000 := (i 0).isLt
    have hi1 : (i 1).val < 256 := (i 1).isLt
    have hlt : (i 0).val / 2000 < cfg1.N := by rw [hN]; omega
    refine ⟨⟨(i 0).val / 2000, hlt⟩, flush1_2 _, ?_⟩
    rw [mem_blk]
    obtain ⟨-, -, -, -, e4, e5⟩ := idx_facts ⟨(i 0).val / 2000, hlt⟩
    intro a
    match a with
    | ⟨0, _⟩ =>
      show win1_2.index ⟨(i 0).val / 2000, hlt⟩ (0 : Fin 2) * 2000 ≤ (i 0).val ∧ (i 0).val < win1_2.index ⟨(i 0).val / 2000, hlt⟩ (0 : Fin 2) * 2000 + 2000
      rw [e4]; show (i 0).val / 2000 * 2000 ≤ (i 0).val ∧ (i 0).val < (i 0).val / 2000 * 2000 + 2000; omega
    | ⟨1, _⟩ =>
      show win1_2.index ⟨(i 0).val / 2000, hlt⟩ (1 : Fin 2) * 256 ≤ (i 1).val ∧ (i 1).val < win1_2.index ⟨(i 0).val / 2000, hlt⟩ (1 : Fin 2) * 256 + 256
      rw [e5]; omega

end Cert.KernelIdeal.BiasA

end
-- ==== Proof.BiasB.lean ====
/-
  Region 3: the second layer's bias and positive part, max(agg + b2, 0), over a 50000×256 array.
  The region's grid has 25 points; point t stages rows 2000·t … 2000·t + 1999 of the aggregated array and the one bias
  row, adds the row to every staged row, takes the positive part, and writes the block back at the same rows of the result. The
  blocks tile the result, so after the last point the result array is the bias added along rows followed by max(·, 0), of the
  arrays as the region found them.
-/
import proofs.«145066_j11639361372218_1_alg».proof.Proof.Gen.KernelIdeal.Frame
import proofs.«145066_j11639361372218_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BiasB

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at entry (p, q) of the point's block: the staged entry plus the bias row's entry q, or 0 if that is negative. -/
theorem pay_at (x0 : Vec Ideal S2000x256 .f32) (x1 : Vec Ideal S1x256 .f32) (p : Fin 2000) (q : Fin 256) :
    k3_pay1 (F := Ideal) x0 x1 (ix2 p q) = max (x0 (ix2 p q) + x1 (ix2 (0 : Fin 1) q)) 0 := by
  unfold k3_pay1
  simp only [shapeCast_self]
  show max (x0 (ix2 p q) + broadcastTo S2000x256 x1 broadcasts_S1x256_S2000x256 (ix2 p q)) (Ideal.ofBits .f32 0x00000000#32) = _
  rw [broadcastTo_1b_ab_apply x1 broadcasts_S1x256_S2000x256 p q, Ideal.ofBits_zero_f32]

/-- Where the three windows' blocks sit at point t: the staged rows and the result move down with t, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The staged block at point t is rows 2000·t … of the aggregated array. -/
theorem main_block (c : Dev nD) (t : Fin cfg3.N) (x : S2000x256.Idx) (i : S50000x256.Idx)
    (h0 : (i 0).val = 2000 * t.val + (x 0).val) (h1 : (i 1).val = (x 1).val) :
    (iblk3 V c 0 t : Vec Ideal S2000x256 .f32) x = (V c main_v37 : S50000x256.Idx → EReal) i := by
  obtain ⟨e0, e1, -⟩ := idx_facts t
  unfold iblk3
  rw [View.read_apply]
  show V c main_v37 _ = V c main_v37 _
  congr 1
  funext a
  apply Fin.ext
  match a with
  | ⟨0, _⟩ => show win3_0.index t 0 * 2000 + 1 * (x 0).val = (i 0).val; rw [e0, h0]; omega
  | ⟨1, _⟩ => show win3_0.index t 1 * 256 + 1 * (x 1).val = (i 1).val; rw [e1, h1]; omega

/-- The bias window's block at every point is the whole bias row. -/
theorem row_block (c : Dev nD) (t : Fin cfg3.N) (x : S1x256.Idx) :
    (iblk3 V c 1 t : Vec Ideal S1x256 .f32) x = (V c main_v38 : S1x256.Idx → EReal) x := by
  obtain ⟨-, -, e2, e3, -⟩ := idx_facts t
  unfold iblk3
  rw [View.read_apply]
  show V c main_v38 _ = V c main_v38 _
  congr 1
  funext a
  apply Fin.ext
  match a with
  | ⟨0, _⟩ => show win3_1.index t 0 * 1 + 1 * (x 0).val = (x 0).val; rw [e2]; omega
  | ⟨1, _⟩ => show win3_1.index t 1 * 256 + 1 * (x 1).val = (x 1).val; rw [e3]; omega

/-- What point t writes back is block t of the biased array. -/
theorem flushed_eq (c : Dev nD) (t : Fin cfg3.N) :
    (dat3 V c).flushed 2 t = ((cfg3.win 2).blk t).view.read (Elt Ideal)
      (Cert.Gcn.biasRelu (M := 50000) (N := 256) (V c main_v37) (V c main_v38)) := by
  show (cfg3.win 2).cut (grid3.coords t) ((dat3 V c).after 2 t) = _
  rw [after3_2]
  unfold out3_2
  rw [View.canon_unit_zero hz]
  simp only [View.ld_unit_zero (S := S2000x256) hz, View.ld_unit_zero (S := S1x256) hz]
  obtain ⟨-, -, -, -, e4, e5⟩ := idx_facts t
  have hN : cfg3.N = 25 := N_3
  have ht : t.val < 25 := hN ▸ t.isLt
  funext j
  obtain ⟨p, q, rfl⟩ : ∃ (p : Fin 2000) (q : Fin 256), j = ix2 p q := ⟨j 0, j 1, eq_ix2 j⟩
  show k3_pay1 (iblk3 V c 0 t) (iblk3 V c 1 t) (ix2 p q)
    = Cert.Gcn.biasRelu (M := 50000) (N := 256) (V c main_v37) (V c main_v38) (((cfg3.win 2).blk t).view.emb (ix2 p q))
  have hi0 : ((((cfg3.win 2).blk t).view.emb (ix2 p q)) 0).val = 2000 * t.val + p.val := by
    show win3_2.index t (0 : Fin 2) * 2000 + 1 * p.val = _; rw [e4]; omega
  have hi1 : ((((cfg3.win 2).blk t).view.emb (ix2 p q)) 1).val = q.val := by
    show win3_2.index t (1 : Fin 2) * 256 + 1 * q.val = _; rw [e5]; omega
  refine (pay_at (iblk3 V c 0 t) (iblk3 V c 1 t) p q).trans ?_
  refine Eq.trans ?_ (Cert.Gcn.biasRelu_at (M := 50000) (N := 256) (V c main_v37) (V c main_v38) _
    ⟨2000 * t.val + p.val, by omega⟩ q hi0 hi1).symm
  exact congrArg (fun z : EReal => max z 0) (congrArg₂ (· + ·) (main_block V c t (ix2 p q) _ hi0 hi1) (row_block V c t (ix2 (0 : Fin 1) q)))

/-- An index of the result is in point t's block iff each coordinate is in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v39).slice (win3_2.rect t)).set ↔ _
  rw [View.set_slice_whole, Rect.mem_set_unit]
  exact Iff.rfl

/-- After the region the result array is the biased array with its positive part taken: row r is written by point r / 2000. -/
theorem final (c : Dev nD) :
    (dat3 V c).arrAt 2 cfg3.N = Cert.Gcn.biasRelu (M := 50000) (N := 256) (V c main_v37) (V c main_v38) :=
  (dat3 V c).arrAt_eq_of_cover 2 _ (fun t _ => flushed_eq V c t) fun i => by
    have hN : cfg3.N = 25 := N_3
    have hi0 : (i 0).val < 50000 := (i 0).isLt
    have hi1 : (i 1).val < 256 := (i 1).isLt
    have hlt : (i 0).val / 2000 < cfg3.N := by rw [hN]; omega
    refine ⟨⟨(i 0).val / 2000, hlt⟩, flush3_2 _, ?_⟩
    rw [mem_blk]
    obtain ⟨-, -, -, -, e4, e5⟩ := idx_facts ⟨(i 0).val / 2000, hlt⟩
    intro a
    match a with
    | ⟨0, _⟩ =>
      show win3_2.index ⟨(i 0).val / 2000, hlt⟩ (0 : Fin 2) * 2000 ≤ (i 0).val ∧ (i 0).val < win3_2.index ⟨(i 0).val / 2000, hlt⟩ (0 : Fin 2) * 2000 + 2000
      rw [e4]; show (i 0).val / 2000 * 2000 ≤ (i 0).val ∧ (i 0).val < (i 0).val / 2000 * 2000 + 2000; omega
    | ⟨1, _⟩ =>
      show win3_2.index ⟨(i 0).val / 2000, hlt⟩ (1 : Fin 2) * 256 ≤ (i 1).val ∧ (i 1).val < win3_2.index ⟨(i 0).val / 2000, hlt⟩ (1 : Fin 2) * 256 + 256
      rw [e5]; omega

end Cert.KernelIdeal.BiasB

end
-- ==== Proof.BiasC.lean ====
/-
  Region 5: the third layer's bias, agg + b3, over a 50000×40 array.
  The region's grid has 25 points; point t stages rows 2000·t … 2000·t + 1999 of the aggregated array and the one bias
  row, adds the row to every staged row and writes the block back at the same rows of the result. The
  blocks tile the result, so after the last point the result array is the bias added along rows, of the
  arrays as the region found them.
-/
import proofs.«145066_j11639361372218_1_alg».proof.Proof.Gen.KernelIdeal.Frame
import proofs.«145066_j11639361372218_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BiasC

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at entry (p, q) of the point's block: the staged entry plus the bias row's entry q. -/
theorem pay_at (x0 : Vec Ideal S2000x40 .f32) (x1 : Vec Ideal S1x40 .f32) (p : Fin 2000) (q : Fin 40) :
    k5_pay1 (F := Ideal) x0 x1 (ix2 p q) = x0 (ix2 p q) + x1 (ix2 (0 : Fin 1) q) := by
  unfold k5_pay1
  simp only [shapeCast_self]
  show x0 (ix2 p q) + broadcastTo S2000x40 x1 broadcasts_S1x40_S2000x40 (ix2 p q) = _
  rw [broadcastTo_1b_ab_apply x1 broadcasts_S1x40_S2000x40 p q]

/-- Where the three windows' blocks sit at point t: the staged rows and the result move down with t, the bias row stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The staged block at point t is rows 2000·t … of the aggregated array. -/
theorem main_block (c : Dev nD) (t : Fin cfg5.N) (x : S2000x40.Idx) (i : S50000x40.Idx)
    (h0 : (i 0).val = 2000 * t.val + (x 0).val) (h1 : (i 1).val = (x 1).val) :
    (iblk5 V c 0 t : Vec Ideal S2000x40 .f32) x = (V c main_v55 : S50000x40.Idx → EReal) i := by
  obtain ⟨e0, e1, -⟩ := idx_facts t
  unfold iblk5
  rw [View.read_apply]
  show V c main_v55 _ = V c main_v55 _
  congr 1
  funext a
  apply Fin.ext
  match a with
  | ⟨0, _⟩ => show win5_0.index t 0 * 2000 + 1 * (x 0).val = (i 0).val; rw [e0, h0]; omega
  | ⟨1, _⟩ => show win5_0.index t 1 * 40 + 1 * (x 1).val = (i 1).val; rw [e1, h1]; omega

/-- The bias window's block at every point is the whole bias row. -/
theorem row_block (c : Dev nD) (t : Fin cfg5.N) (x : S1x40.Idx) :
    (iblk5 V c 1 t : Vec Ideal S1x40 .f32) x = (V c main_v56 : S1x40.Idx → EReal) x := by
  obtain ⟨-, -, e2, e3, -⟩ := idx_facts t
  unfold iblk5
  rw [View.read_apply]
  show V c main_v56 _ = V c main_v56 _
  congr 1
  funext a
  apply Fin.ext
  match a with
  | ⟨0, _⟩ => show win5_1.index t 0 * 1 + 1 * (x 0).val = (x 0).val; rw [e2]; omega
  | ⟨1, _⟩ => show win5_1.index t 1 * 40 + 1 * (x 1).val = (x 1).val; rw [e3]; omega

/-- What point t writes back is block t of the biased array. -/
theorem flushed_eq (c : Dev nD) (t : Fin cfg5.N) :
    (dat5 V c).flushed 2 t = ((cfg5.win 2).blk t).view.read (Elt Ideal)
      (Cert.Gcn.bias (M := 50000) (N := 40) (V c main_v55) (V c main_v56)) := by
  show (cfg5.win 2).cut (grid5.coords t) ((dat5 V c).after 2 t) = _
  rw [after5_2]
  unfold out5_2
  rw [View.canon_unit_zero hz]
  simp only [View.ld_unit_zero (S := S2000x40) hz, View.ld_unit_zero (S := S1x40) hz]
  obtain ⟨-, -, -, -, e4, e5⟩ := idx_facts t
  have hN : cfg5.N = 25 := N_5
  have ht : t.val < 25 := hN ▸ t.isLt
  funext j
  obtain ⟨p, q, rfl⟩ : ∃ (p : Fin 2000) (q : Fin 40), j = ix2 p q := ⟨j 0, j 1, eq_ix2 j⟩
  show k5_pay1 (iblk5 V c 0 t) (iblk5 V c 1 t) (ix2 p q)
    = Cert.Gcn.bias (M := 50000) (N := 40) (V c main_v55) (V c main_v56) (((cfg5.win 2).blk t).view.emb (ix2 p q))
  have hi0 : ((((cfg5.win 2).blk t).view.emb (ix2 p q)) 0).val = 2000 * t.val + p.val := by
    show win5_2.index t (0 : Fin 2) * 2000 + 1 * p.val = _; rw [e4]; omega
  have hi1 : ((((cfg5.win 2).blk t).view.emb (ix2 p q)) 1).val = q.val := by
    show win5_2.index t (1 : Fin 2) * 40 + 1 * q.val = _; rw [e5]; omega
  refine (pay_at (iblk5 V c 0 t) (iblk5 V c 1 t) p q).trans ?_
  refine Eq.trans ?_ (Cert.Gcn.bias_at (M := 50000) (N := 40) (V c main_v55) (V c main_v56) _
    ⟨2000 * t.val + p.val, by omega⟩ q hi0 hi1).symm
  exact congrArg₂ (· + ·) (main_block V c t (ix2 p q) _ hi0 hi1) (row_block V c t (ix2 (0 : Fin 1) q))

/-- An index of the result is in point t's block iff each coordinate is in the block's range on its axis. -/
theorem mem_blk (t : Fin cfg5.N) (i : S50000x40.Idx) :
    i ∈ ((cfg5.win 2).blk t).view.set ↔ ∀ a : Fin 2, win5_2.index t a * S2000x40.size a ≤ (i a).val ∧ (i a).val < win5_2.index t a * S2000x40.size a + S2000x40.size a := by
  show i ∈ ((View.whole main_v57).slice (win5_2.rect t)).set ↔ _
  rw [View.set_slice_whole, Rect.mem_set_unit]
  exact Iff.rfl

/-- After the region the result array is the biased array: row r is written by point r / 2000. -/
theorem final (c : Dev nD) :
    (dat5 V c).arrAt 2 cfg5.N = Cert.Gcn.bias (M := 50000) (N := 40) (V c main_v55) (V c main_v56) :=
  (dat5 V c).arrAt_eq_of_cover 2 _ (fun t _ => flushed_eq V c t) fun i => by
    have hN : cfg5.N = 25 := N_5
    have hi0 : (i 0).val < 50000 := (i 0).isLt
    have hi1 : (i 1).val < 40 := (i 1).isLt
    have hlt : (i 0).val / 2000 < cfg5.N := by rw [hN]; omega
    refine ⟨⟨(i 0).val / 2000, hlt⟩, flush5_2 _, ?_⟩
    rw [mem_blk]
    obtain ⟨-, -, -, -, e4, e5⟩ := idx_facts ⟨(i 0).val / 2000, hlt⟩
    intro a
    match a with
    | ⟨0, _⟩ =>
      show win5_2.index ⟨(i 0).val / 2000, hlt⟩ (0 : Fin 2) * 2000 ≤ (i 0).val ∧ (i 0).val < win5_2.index ⟨(i 0).val / 2000, hlt⟩ (0 : Fin 2) * 2000 + 2000
      rw [e4]; show (i 0).val / 2000 * 2000 ≤ (i 0).val ∧ (i 0).val < (i 0).val / 2000 * 2000 + 2000; omega
    | ⟨1, _⟩ =>
      show win5_2.index ⟨(i 0).val / 2000, hlt⟩ (1 : Fin 2) * 40 ≤ (i 1).val ∧ (i 1).val < win5_2.index ⟨(i 0).val / 2000, hlt⟩ (1 : Fin 2) * 40 + 40
      rw [e5]; omega

end Cert.KernelIdeal.BiasC

end
-- ==== Proof.LibTRef.lean ====
/-
  Contents moved to a typed reference's buffer type and back are the contents: the two transports along the reference's
  type equation cancel, whatever the reference.
-/
import Idealize.ShloMosaic.Lib.StableHlo

noncomputable section

namespace Cert.LibTRef

open Idealize.ShloMosaic Idealize.ShloMosaic.StableHlo

variable {sig : RefSig} {Val : EltTy → Type} {T : BufTy}

/-- From the value's type to the buffer's and back. -/
theorem ofBuf_toBuf (x : TRef sig T) (v : T.Contents Val) : x.ofBuf (x.toBuf v) = v := by
  obtain ⟨r, h, h2, h3⟩ := x
  subst h
  rfl

/-- From the buffer's type to the value's and back. -/
theorem toBuf_ofBuf (x : TRef sig T) (v : x.ref.ty.Contents Val) : x.toBuf (x.ofBuf v) = v := by
  obtain ⟨r, h, h2, h3⟩ := x
  subst h
  rfl

end Cert.LibTRef

end
-- ==== Proof.KFold.lean ====
/-
  The idealized kernel's buffers, boundary by boundary. The program's fold runs through seven stretches of host
  operations and six regions (`W0 … W13`). Each host stretch is read once, over ANY contents `V` it starts from, as the
  named function of the buffers it consumes (a change of float format is the identity here); a buffer that neither a
  stretch nor a region writes comes through unchanged; each region's result array is the dense product, or the biased
  array, of the arrays it found (the region modules). Chained from the launch contents, the result array at the last
  boundary is the network's value of the nine argument arrays.
-/
import proofs.«145066_j11639361372218_1_alg».proof.Proof.Gen.KernelIdeal.Frame
import proofs.«145066_j11639361372218_1_alg».proof.Proof.KHost
import proofs.«145066_j11639361372218_1_alg».proof.Proof.Net
import proofs.«145066_j11639361372218_1_alg».proof.Proof.DenseA
import proofs.«145066_j11639361372218_1_alg».proof.Proof.DenseB
import proofs.«145066_j11639361372218_1_alg».proof.Proof.DenseC
import proofs.«145066_j11639361372218_1_alg».proof.Proof.BiasA
import proofs.«145066_j11639361372218_1_alg».proof.Proof.BiasB
import proofs.«145066_j11639361372218_1_alg».proof.Proof.BiasC
import proofs.«145066_j11639361372218_1_alg».proof.Proof.LibRowBias
import proofs.«145066_j11639361372218_1_alg».proof.Proof.LibTRef
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

/-! ## Each host stretch, read over any contents it starts from -/

section Reads

variable (V : Valuation τ sig (Elt Ideal))

theorem readH0_v1 : after hostOps0 V (Proc.devRef .tc main_v1) = Shared.srcList (F := Ideal) (V (Proc.devRef .tc main_arg1)) := by
  simp only [hostOps0]; after_results_simp <;> rfl
theorem readH0_v3 : after hostOps0 V (Proc.devRef .tc main_v3) = Shared.dstList (F := Ideal) (V (Proc.devRef .tc main_arg1)) := by
  simp only [hostOps0]; after_results_simp <;> rfl
theorem readH0_v4 : after hostOps0 V (Proc.devRef .tc main_v4) = ((V (Proc.devRef .tc main_arg0)) : S50000x128.Idx → EReal) := by
  simp only [hostOps0]; after_results_simp <;> rfl
theorem readH0_v5 : after hostOps0 V (Proc.devRef .tc main_v5) = ((V (Proc.devRef .tc main_arg3)) : S128x256.Idx → EReal) := by
  simp only [hostOps0]; after_results_simp <;> rfl
set_option maxHeartbeats 8000000 in
theorem readH1_v19 : after hostOps1 V (Proc.devRef .tc main_v19)
    = Shared.agg256 (F := Ideal) (V (Proc.devRef .tc main_v6)) (V (Proc.devRef .tc main_v1)) (V (Proc.devRef .tc main_v3)) (V (Proc.devRef .tc main_arg2)) := by
  simp only [hostOps1]; after_results_simp <;> rfl
theorem readH1_v20 : after hostOps1 V (Proc.devRef .tc main_v20)
    = shapeCast S1x256 ((V (Proc.devRef .tc main_arg4)) : S256.Idx → EReal) Facts₀.shapeCasts_S256_S1x256 := by
  simp only [hostOps1]; after_results_simp <;> rfl
theorem readH2_v22 : after hostOps2 V (Proc.devRef .tc main_v22) = ((V (Proc.devRef .tc main_v21)) : S50000x256.Idx → EReal) := by
  simp only [hostOps2]; after_results_simp <;> rfl
theorem readH2_v23 : after hostOps2 V (Proc.devRef .tc main_v23) = ((V (Proc.devRef .tc main_arg5)) : S256x256.Idx → EReal) := by
  simp only [hostOps2]; after_results_simp <;> rfl
set_option maxHeartbeats 8000000 in
theorem readH3_v37 : after hostOps3 V (Proc.devRef .tc main_v37)
    = Shared.agg256 (F := Ideal) (V (Proc.devRef .tc main_v24)) (V (Proc.devRef .tc main_v1)) (V (Proc.devRef .tc main_v3)) (V (Proc.devRef .tc main_arg2)) := by
  simp only [hostOps3]; after_results_simp <;> rfl
theorem readH3_v38 : after hostOps3 V (Proc.devRef .tc main_v38)
    = shapeCast S1x256 ((V (Proc.devRef .tc main_arg6)) : S256.Idx → EReal) Facts₀.shapeCasts_S256_S1x256 := by
  simp only [hostOps3]; after_results_simp <;> rfl
theorem readH4_v40 : after hostOps4 V (Proc.devRef .tc main_v40) = ((V (Proc.devRef .tc main_v39)) : S50000x256.Idx → EReal) := by
  simp only [hostOps4]; after_results_simp <;> rfl
theorem readH4_v41 : after hostOps4 V (Proc.devRef .tc main_v41) = ((V (Proc.devRef .tc main_arg7)) : S256x40.Idx → EReal) := by
  simp only [hostOps4]; after_results_simp <;> rfl
set_option maxHeartbeats 8000000 in
theorem readH5_v55 : after hostOps5 V (Proc.devRef .tc main_v55)
    = Shared.agg40 (F := Ideal) (V (Proc.devRef .tc main_v42)) (V (Proc.devRef .tc main_v1)) (V (Proc.devRef .tc main_v3)) (V (Proc.devRef .tc main_arg2)) := by
  simp only [hostOps5]; after_results_simp <;> rfl
theorem readH5_v56 : after hostOps5 V (Proc.devRef .tc main_v56)
    = shapeCast S1x40 ((V (Proc.devRef .tc main_arg8)) : S40.Idx → EReal) Facts₀.shapeCasts_S40_S1x40 := by
  simp only [hostOps5]; after_results_simp <;> rfl
/-- The result buffer's and the logits buffer's types are the log-softmax's value types: the transports are the identity. -/
theorem toBuf_v58 (v : (⟨S50000x40, .f32⟩ : BufTy).Contents (Elt Ideal)) :
    (TRef.of main_v58 : TRef sig ⟨S50000x40, .f32⟩).toBuf v = v := rfl
theorem ofBuf_v57 (v : (Proc.devRef (τ := τ) .tc main_v57).ty.Contents (Elt Ideal)) :
    (TRef.of main_v57 : TRef sig ⟨S50000x40, .f32⟩).ofBuf v = v := rfl
set_option maxHeartbeats 2000000 in
theorem readH6_v58 : after hostOps6 V (Proc.devRef .tc main_v58) = Shared.logSoftmax (F := Ideal) (V (Proc.devRef .tc main_v57)) := by
  simp only [hostOps6]; after_results_simp
  simp only [Cert.LibTRef.ofBuf_toBuf, toBuf_v58, ofBuf_v57]
  rfl

/-! ### What a stretch does not write comes through it -/

theorem keepH0_main_arg2 (V : Valuation τ sig (Elt Ideal)) : StableHlo.after hostOps0 V (Proc.devRef .tc main_arg2) = V (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH0_main_arg4 (V : Valuation τ sig (Elt Ideal)) : StableHlo.after hostOps0 V (Proc.devRef .tc main_arg4) = V (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH0_main_arg5 (V : Valuation τ sig (Elt Ideal)) : StableHlo.after hostOps0 V (Proc.devRef .tc main_arg5) = V (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH0_main_arg6 (V : Valuation τ sig (Elt Ideal)) : StableHlo.after hostOps0 V (Proc.devRef .tc main_arg6) = V (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH0_main_arg7 (V : Valuation τ sig (Elt Ideal)) : StableHlo.after hostOps0 V (Proc.devRef .tc main_arg7) = V (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH0_main_arg8 (V : Valuation τ sig (Elt Ideal)) : StableHlo.after hostOps0 V (Proc.devRef .tc main_arg8) = V (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH1_main_v1 (V : Valuation τ sig (Elt Ideal)) : StableHlo.after hostOps1 V (Proc.devRef .tc main_v1) = V (Proc.devRef .tc main_v1) :=
  StableHlo.after_of_forall_not_mem (b := Proc.devRef .tc main_v1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH1_main_v3 (V : Valuation τ sig (Elt Ideal)) : StableHlo.after hostOps1 V (Proc.devRef .tc main_v3) = V (Proc.devRef .tc main_v3) :=
  StableHlo.after_of_forall_not_mem (b := Proc.devRef .tc main_v3) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH1_main_arg2 (V : Valuation τ sig (Elt Ideal)) : StableHlo.after hostOps1 V (Proc.devRef .tc main_arg2) = V (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH1_main_arg5 (V : Valuation τ sig (Elt Ideal)) : StableHlo.after hostOps1 V (Proc.devRef .tc main_arg5) = V (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH1_main_arg6 (V : Valuation τ sig (Elt Ideal)) : StableHlo.after hostOps1 V (Proc.devRef .tc main_arg6) = V (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH1_main_arg7 (V : Valuation τ sig (Elt Ideal)) : StableHlo.after hostOps1 V (Proc.devRef .tc main_arg7) = V (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH1_main_arg8 (V : Valuation τ sig (Elt Ideal)) : StableHlo.after hostOps1 V (Proc.devRef .tc main_arg8) = V (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH2_main_v1 (V : Valuation τ sig (Elt Ideal)) : StableHlo.after hostOps2 V (Proc.devRef .tc main_v1) = V (Proc.devRef .tc main_v1) :=
  StableHlo.after_of_forall_not_mem (b := Proc.devRef .tc main_v1) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH2_main_v3 (V : Valuation τ sig (Elt Ideal)) : StableHlo.after hostOps2 V (Proc.devRef .tc main_v3) = V (Proc.devRef .tc main_v3) :=
  StableHlo.after_of_forall_not_mem (b := Proc.devRef .tc main_v3) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH2_main_arg2 (V : Valuation τ sig (Elt Ideal)) : StableHlo.after hostOps2 V (Proc.devRef .tc main_arg2) = V (Proc.devRef .tc main_arg2) :=
  StableHlo.after_of_forall_not_mem (b := Proc.devRef .tc main_arg2) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH2_main_arg6 (V : Valuation τ sig (Elt Ideal)) : StableHlo.after hostOps2 V (Proc.devRef .tc main_arg6) = V (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH2_main_arg7 (V : Valuation τ sig (Elt Ideal)) : StableHlo.after hostOps2 V (Proc.devRef .tc main_arg7) = V (Proc.devRef .tc main_arg7) :=
  StableHlo.after_of_forall_not_mem (b := Proc.devRef .tc main_arg7) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH2_main_arg8 (V : Valuation τ sig (Elt Ideal)) : StableHlo.after hostOps2 V (Proc.devRef .tc main_arg8) = V (Proc.devRef .tc main_arg8) :=
  StableHlo.after_of_forall_not_mem (b := Proc.devRef .tc main_arg8) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH3_main_v1 (V : Valuation τ sig (Elt Ideal)) : StableHlo.after hostOps3 V (Proc.devRef .tc main_v1) = V (Proc.devRef .tc main_v1) :=
  StableHlo.after_of_forall_not_mem (b := Proc.devRef .tc main_v1) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH3_main_v3 (V : Valuation τ sig (Elt Ideal)) : StableHlo.after hostOps3 V (Proc.devRef .tc main_v3) = V (Proc.devRef .tc main_v3) :=
  StableHlo.after_of_forall_not_mem (b := Proc.devRef .tc main_v3) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH3_main_arg2 (V : Valuation τ sig (Elt Ideal)) : StableHlo.after hostOps3 V (Proc.devRef .tc main_arg2) = V (Proc.devRef .tc main_arg2) :=
  StableHlo.after_of_forall_not_mem (b := Proc.devRef .tc main_arg2) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH3_main_arg7 (V : Valuation τ sig (Elt Ideal)) : StableHlo.after hostOps3 V (Proc.devRef .tc main_arg7) = V (Proc.devRef .tc main_arg7) :=
  StableHlo.after_of_forall_not_mem (b := Proc.devRef .tc main_arg7) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH3_main_arg8 (V : Valuation τ sig (Elt Ideal)) : StableHlo.after hostOps3 V (Proc.devRef .tc main_arg8) = V (Proc.devRef .tc main_arg8) :=
  StableHlo.after_of_forall_not_mem (b := Proc.devRef .tc main_arg8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH4_main_v1 (V : Valuation τ sig (Elt Ideal)) : StableHlo.after hostOps4 V (Proc.devRef .tc main_v1) = V (Proc.devRef .tc main_v1) :=
  StableHlo.after_of_forall_not_mem (b := Proc.devRef .tc main_v1) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH4_main_v3 (V : Valuation τ sig (Elt Ideal)) : StableHlo.after hostOps4 V (Proc.devRef .tc main_v3) = V (Proc.devRef .tc main_v3) :=
  StableHlo.after_of_forall_not_mem (b := Proc.devRef .tc main_v3) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH4_main_arg2 (V : Valuation τ sig (Elt Ideal)) : StableHlo.after hostOps4 V (Proc.devRef .tc main_arg2) = V (Proc.devRef .tc main_arg2) :=
  StableHlo.after_of_forall_not_mem (b := Proc.devRef .tc main_arg2) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepH4_main_arg8 (V : Valuation τ sig (Elt Ideal)) : StableHlo.after hostOps4 V (Proc.devRef .tc main_arg8) = V (Proc.devRef .tc main_arg8) :=
  StableHlo.after_of_forall_not_mem (b := Proc.devRef .tc main_arg8) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Reads

/-! ## The chain from the launch contents -/

section Chain

variable (m : (ℓ : Loc nD τ sig) → Buf (Elt Ideal) ℓ) (ρ : Dev nD → PrngReg) (c : Dev nD)

/-- The nine argument arrays as launched. -/
abbrev A0 : (⟨2, ![50000, 128]⟩ : Shape).Idx → EReal := m ((c : Thread nD τ).loc main_arg0)
abbrev A1 : (⟨S2x800000, .i32⟩ : BufTy).Contents (Elt Ideal) := m ((c : Thread nD τ).loc main_arg1)
abbrev A2 : (⟨S800000, .f32⟩ : BufTy).Contents (Elt Ideal) := m ((c : Thread nD τ).loc main_arg2)
abbrev A3 : (⟨2, ![128, 256]⟩ : Shape).Idx → EReal := m ((c : Thread nD τ).loc main_arg3)
abbrev A4 : (⟨1, ![256]⟩ : Shape).Idx → EReal := m ((c : Thread nD τ).loc main_arg4)
abbrev A5 : (⟨2, ![256, 256]⟩ : Shape).Idx → EReal := m ((c : Thread nD τ).loc main_arg5)
abbrev A6 : (⟨1, ![256]⟩ : Shape).Idx → EReal := m ((c : Thread nD τ).loc main_arg6)
abbrev A7 : (⟨2, ![256, 40]⟩ : Shape).Idx → EReal := m ((c : Thread nD τ).loc main_arg7)
abbrev A8 : (⟨1, ![40]⟩ : Shape).Idx → EReal := m ((c : Thread nD τ).loc main_arg8)

/-! ### The edge lists, the edge weights and the biases where each layer reads them -/

theorem src_at1 : W1 m ρ c (Proc.devRef .tc main_v1) = Shared.srcList (F := Ideal) (A1 m c) := readH0_v1 (W0 m ρ c)
theorem dst_at1 : W1 m ρ c (Proc.devRef .tc main_v3) = Shared.dstList (F := Ideal) (A1 m c) := readH0_v3 (W0 m ρ c)
theorem src_at2 : W2 m ρ c (Proc.devRef .tc main_v1) = Shared.srcList (F := Ideal) (A1 m c) :=
  (W2_of_ne m ρ c main_v1 (by decide)).trans (src_at1 m ρ c)
theorem dst_at2 : W2 m ρ c (Proc.devRef .tc main_v3) = Shared.dstList (F := Ideal) (A1 m c) :=
  (W2_of_ne m ρ c main_v3 (by decide)).trans (dst_at1 m ρ c)
theorem wts_at2 : W2 m ρ c (Proc.devRef .tc main_arg2) = A2 m c :=
  (W2_of_ne m ρ c main_arg2 (by decide)).trans (keepH0_main_arg2 (W0 m ρ c))
theorem src_at6 : W6 m ρ c (Proc.devRef .tc main_v1) = Shared.srcList (F := Ideal) (A1 m c) :=
  ((W6_of_ne m ρ c main_v1 (by decide)).trans ((keepH2_main_v1 (W4 m ρ c)).trans ((W4_of_ne m ρ c main_v1 (by decide)).trans ((keepH1_main_v1 (W2 m ρ c)).trans (W2_of_ne m ρ c main_v1 (by decide)))))).trans (src_at1 m ρ c)
theorem dst_at6 : W6 m ρ c (Proc.devRef .tc main_v3) = Shared.dstList (F := Ideal) (A1 m c) :=
  ((W6_of_ne m ρ c main_v3 (by decide)).trans ((keepH2_main_v3 (W4 m ρ c)).trans ((W4_of_ne m ρ c main_v3 (by decide)).trans ((keepH1_main_v3 (W2 m ρ c)).trans (W2_of_ne m ρ c main_v3 (by decide)))))).trans (dst_at1 m ρ c)
theorem wts_at6 : W6 m ρ c (Proc.devRef .tc main_arg2) = A2 m c :=
  (W6_of_ne m ρ c main_arg2 (by decide)).trans ((keepH2_main_arg2 (W4 m ρ c)).trans ((W4_of_ne m ρ c main_arg2 (by decide)).trans ((keepH1_main_arg2 (W2 m ρ c)).trans ((W2_of_ne m ρ c main_arg2 (by decide)).trans (keepH0_main_arg2 (W0 m ρ c))))))
theorem src_at10 : W10 m ρ c (Proc.devRef .tc main_v1) = Shared.srcList (F := Ideal) (A1 m c) :=
  ((W10_of_ne m ρ c main_v1 (by decide)).trans ((keepH4_main_v1 (W8 m ρ c)).trans ((W8_of_ne m ρ c main_v1 (by decide)).trans ((keepH3_main_v1 (W6 m ρ c)).trans ((W6_of_ne m ρ c main_v1 (by decide)).trans ((keepH2_main_v1 (W4 m ρ c)).trans ((W4_of_ne m ρ c main_v1 (by decide)).trans ((keepH1_main_v1 (W2 m ρ c)).trans (W2_of_ne m ρ c main_v1 (by decide)))))))))).trans (src_at1 m ρ c)
theorem dst_at10 : W10 m ρ c (Proc.devRef .tc main_v3) = Shared.dstList (F := Ideal) (A1 m c) :=
  ((W10_of_ne m ρ c main_v3 (by decide)).trans ((keepH4_main_v3 (W8 m ρ c)).trans ((W8_of_ne m ρ c main_v3 (by decide)).trans ((keepH3_main_v3 (W6 m ρ c)).trans ((W6_of_ne m ρ c main_v3 (by decide)).trans ((keepH2_main_v3 (W4 m ρ c)).trans ((W4_of_ne m ρ c main_v3 (by decide)).trans ((keepH1_main_v3 (W2 m ρ c)).trans (W2_of_ne m ρ c main_v3 (by decide)))))))))).trans (dst_at1 m ρ c)
theorem wts_at10 : W10 m ρ c (Proc.devRef .tc main_arg2) = A2 m c :=
  (W10_of_ne m ρ c main_arg2 (by decide)).trans ((keepH4_main_arg2 (W8 m ρ c)).trans ((W8_of_ne m ρ c main_arg2 (by decide)).trans ((keepH3_main_arg2 (W6 m ρ c)).trans ((W6_of_ne m ρ c main_arg2 (by decide)).trans ((keepH2_main_arg2 (W4 m ρ c)).trans ((W4_of_ne m ρ c main_arg2 (by decide)).trans ((keepH1_main_arg2 (W2 m ρ c)).trans ((W2_of_ne m ρ c main_arg2 (by decide)).trans (keepH0_main_arg2 (W0 m ρ c))))))))))
theorem b1_at2 : W2 m ρ c (Proc.devRef .tc main_arg4) = (A4 m c : S256.Idx → EReal) :=
  (W2_of_ne m ρ c main_arg4 (by decide)).trans (keepH0_main_arg4 (W0 m ρ c))
theorem w2_at4 : W4 m ρ c (Proc.devRef .tc main_arg5) = (A5 m c : S256x256.Idx → EReal) :=
  (W4_of_ne m ρ c main_arg5 (by decide)).trans ((keepH1_main_arg5 (W2 m ρ c)).trans ((W2_of_ne m ρ c main_arg5 (by decide)).trans (keepH0_main_arg5 (W0 m ρ c))))
theorem b2_at6 : W6 m ρ c (Proc.devRef .tc main_arg6) = (A6 m c : S256.Idx → EReal) :=
  (W6_of_ne m ρ c main_arg6 (by decide)).trans ((keepH2_main_arg6 (W4 m ρ c)).trans ((W4_of_ne m ρ c main_arg6 (by decide)).trans ((keepH1_main_arg6 (W2 m ρ c)).trans ((W2_of_ne m ρ c main_arg6 (by decide)).trans (keepH0_main_arg6 (W0 m ρ c))))))
theorem w3_at8 : W8 m ρ c (Proc.devRef .tc main_arg7) = (A7 m c : S256x40.Idx → EReal) :=
  (W8_of_ne m ρ c main_arg7 (by decide)).trans ((keepH3_main_arg7 (W6 m ρ c)).trans ((W6_of_ne m ρ c main_arg7 (by decide)).trans ((keepH2_main_arg7 (W4 m ρ c)).trans ((W4_of_ne m ρ c main_arg7 (by decide)).trans ((keepH1_main_arg7 (W2 m ρ c)).trans ((W2_of_ne m ρ c main_arg7 (by decide)).trans (keepH0_main_arg7 (W0 m ρ c))))))))
theorem b3_at10 : W10 m ρ c (Proc.devRef .tc main_arg8) = (A8 m c : S40.Idx → EReal) :=
  (W10_of_ne m ρ c main_arg8 (by decide)).trans ((keepH4_main_arg8 (W8 m ρ c)).trans ((W8_of_ne m ρ c main_arg8 (by decide)).trans ((keepH3_main_arg8 (W6 m ρ c)).trans ((W6_of_ne m ρ c main_arg8 (by decide)).trans ((keepH2_main_arg8 (W4 m ρ c)).trans ((W4_of_ne m ρ c main_arg8 (by decide)).trans ((keepH1_main_arg8 (W2 m ρ c)).trans ((W2_of_ne m ρ c main_arg8 (by decide)).trans (keepH0_main_arg8 (W0 m ρ c))))))))))

/-! ### Layer by layer -/

/-- After region 0: the first dense product. -/
theorem dense1 : W2 m ρ c (Proc.devRef .tc main_v6) = Cert.Gcn.dense (M := 50000) (K := 128) (N := 256) (A0 m c) (A3 m c) := by
  refine (W2_arr m ρ c 2).trans ?_
  refine (DenseA.final (V1 m ρ) c).trans ?_
  have e4 : V1 m ρ c main_v4 = A0 m c := readH0_v4 (W0 m ρ c)
  have e5 : V1 m ρ c main_v5 = A3 m c := readH0_v5 (W0 m ρ c)
  rw [e4, e5]

/-- After region 1: the first hidden layer. -/
theorem hidden1 : W4 m ρ c (Proc.devRef .tc main_v21) = Net.hidden (A0 m c) (A3 m c) (A4 m c) (A1 m c) (A2 m c) := by
  refine (W4_arr m ρ c 2).trans ?_
  refine (BiasA.final (V3 m ρ) c).trans ?_
  have e19 : V3 m ρ c main_v19 = Shared.agg256 (F := Ideal) (Cert.Gcn.dense (M := 50000) (K := 128) (N := 256) (A0 m c) (A3 m c))
      (Shared.srcList (F := Ideal) (A1 m c)) (Shared.dstList (F := Ideal) (A1 m c)) (A2 m c) := by
    refine (readH1_v19 (W2 m ρ c)).trans ?_
    rw [dense1 m ρ c, src_at2 m ρ c, dst_at2 m ρ c, wts_at2 m ρ c]
  have e20 : V3 m ρ c main_v20 = Cert.LibRowBias.rowOf (A4 m c) := by
    refine (readH1_v20 (W2 m ρ c)).trans ?_
    rw [b1_at2 m ρ c]
    exact Cert.LibRowBias.reshape_eq_rowOf _ _
  rw [e19, e20]
  rfl

/-- After region 2: the second dense product. -/
theorem dense2 : W6 m ρ c (Proc.devRef .tc main_v24)
    = Cert.Gcn.dense (M := 50000) (K := 256) (N := 256) (Net.hidden (A0 m c) (A3 m c) (A4 m c) (A1 m c) (A2 m c)) (A5 m c) := by
  refine (W6_arr m ρ c 2).trans ?_
  refine (DenseB.final (V5 m ρ) c).trans ?_
  have e22 : V5 m ρ c main_v22 = Net.hidden (A0 m c) (A3 m c) (A4 m c) (A1 m c) (A2 m c) :=
    (readH2_v22 (W4 m ρ c)).trans (hidden1 m ρ c)
  have e23 : V5 m ρ c main_v23 = A5 m c := (readH2_v23 (W4 m ρ c)).trans (w2_at4 m ρ c)
  rw [e22, e23]

/-- After region 3: the second hidden layer. -/
theorem hidden2 : W8 m ρ c (Proc.devRef .tc main_v39)
    = Net.hidden (Net.hidden (A0 m c) (A3 m c) (A4 m c) (A1 m c) (A2 m c)) (A5 m c) (A6 m c) (A1 m c) (A2 m c) := by
  refine (W8_arr m ρ c 2).trans ?_
  refine (BiasB.final (V7 m ρ) c).trans ?_
  have e37 : V7 m ρ c main_v37 = Shared.agg256 (F := Ideal)
      (Cert.Gcn.dense (M := 50000) (K := 256) (N := 256) (Net.hidden (A0 m c) (A3 m c) (A4 m c) (A1 m c) (A2 m c)) (A5 m c))
      (Shared.srcList (F := Ideal) (A1 m c)) (Shared.dstList (F := Ideal) (A1 m c)) (A2 m c) := by
    refine (readH3_v37 (W6 m ρ c)).trans ?_
    rw [dense2 m ρ c, src_at6 m ρ c, dst_at6 m ρ c, wts_at6 m ρ c]
  have e38 : V7 m ρ c main_v38 = Cert.LibRowBias.rowOf (A6 m c) := by
    refine (readH3_v38 (W6 m ρ c)).trans ?_
    rw [b2_at6 m ρ c]
    exact Cert.LibRowBias.reshape_eq_rowOf _ _
  rw [e37, e38]
  rfl

/-- After region 4: the third dense product. -/
theorem dense3 : W10 m ρ c (Proc.devRef .tc main_v42)
    = Cert.Gcn.dense (M := 50000) (K := 256) (N := 40)
        (Net.hidden (Net.hidden (A0 m c) (A3 m c) (A4 m c) (A1 m c) (A2 m c)) (A5 m c) (A6 m c) (A1 m c) (A2 m c)) (A7 m c) := by
  refine (W10_arr m ρ c 2).trans ?_
  refine (DenseC.final (V9 m ρ) c).trans ?_
  have e40 : V9 m ρ c main_v40 = Net.hidden (Net.hidden (A0 m c) (A3 m c) (A4 m c) (A1 m c) (A2 m c)) (A5 m c) (A6 m c) (A1 m c) (A2 m c) :=
    (readH4_v40 (W8 m ρ c)).trans (hidden2 m ρ c)
  have e41 : V9 m ρ c main_v41 = A7 m c := (readH4_v41 (W8 m ρ c)).trans (w3_at8 m ρ c)
  rw [e40, e41]

/-- After region 5: the logits. -/
theorem logits3 : W12 m ρ c (Proc.devRef .tc main_v57)
    = Net.logits (Net.hidden (Net.hidden (A0 m c) (A3 m c) (A4 m c) (A1 m c) (A2 m c)) (A5 m c) (A6 m c) (A1 m c) (A2 m c))
        (A7 m c) (A8 m c) (A1 m c) (A2 m c) := by
  refine (W12_arr m ρ c 2).trans ?_
  refine (BiasC.final (V11 m ρ) c).trans ?_
  have e55 : V11 m ρ c main_v55 = Shared.agg40 (F := Ideal)
      (Cert.Gcn.dense (M := 50000) (K := 256) (N := 40)
        (Net.hidden (Net.hidden (A0 m c) (A3 m c) (A4 m c) (A1 m c) (A2 m c)) (A5 m c) (A6 m c) (A1 m c) (A2 m c)) (A7 m c))
      (Shared.srcList (F := Ideal) (A1 m c)) (Shared.dstList (F := Ideal) (A1 m c)) (A2 m c) := by
    refine (readH5_v55 (W10 m ρ c)).trans ?_
    rw [dense3 m ρ c, src_at10 m ρ c, dst_at10 m ρ c, wts_at10 m ρ c]
  have e56 : V11 m ρ c main_v56 = Cert.LibRowBias.rowOf (A8 m c) := by
    refine (readH5_v56 (W10 m ρ c)).trans ?_
    rw [b3_at10 m ρ c]
    exact Cert.LibRowBias.reshape_eq_rowOf _ _
  rw [e55, e56]
  rfl

/-- The result array at the last boundary is the network's value of the nine arguments. -/
theorem result : W13 m ρ c (Proc.devRef .tc main_v58)
    = Net.out (A0 m c) (A1 m c) (A2 m c) (A3 m c) (A4 m c) (A5 m c) (A6 m c) (A7 m c) (A8 m c) := by
  refine (readH6_v58 (W12 m ρ c)).trans ?_
  rw [logits3 m ρ c]
  rfl

end Chain

end Cert.KernelIdeal.Fold

end
-- ==== Proof.RHost.lean ====
/-
  The host operations that both programs apply unchanged, named once: the edge lists read off the 2×800000 index
  array, the aggregation of a layer (gather the rows of h named by the source list — a negative index counted from the
  end —, scale row e by the edge's weight, scatter-add the rows into the node named by the destination list, starting
  from zero), and the row-wise log-softmax z − max z − log ∑ exp(z − max z). They are never opened: the two programs
  are compared through them.
-/
import proofs.«145066_j11639361372218_1_alg».proof.Proof.Gen.ReferenceIdeal

noncomputable section

namespace Cert.ReferenceIdeal.Shared

open Cert.ReferenceIdeal Cert.ReferenceIdeal.Facts₀ Cert.ReferenceIdeal.Facts Idealize.ShloMosaic

variable {F : FTy → Type} [FloatOps F]

/-- The source list: row 0 of the edge array. -/
def srcList (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- The destination list: row 1 of the edge array. -/
def dstList (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- The source list with negative entries counted from the end, as a column of start indices. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- One layer's aggregation over 256 columns. -/
def agg256 (h : (⟨S50000x256, .f32⟩ : BufTy).Contents (Elt F)) (s d : (⟨S800000, .i32⟩ : BufTy).Contents (Elt F))
    (e : (⟨S800000, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (mulf (Host.gather gather_S50000x256_S800000x1_S800000x256_1_0_n_n_0_1_1256 h (srcCol s))
      (broadcastInDim S800000x256 ![0, 1] bcast_S800000x1_S800000x256_0_1 (broadcastInDim S800000x1 ![0] bcast_S800000_S800000x1_0 e)))

/-- The last layer's aggregation over 40 columns. -/
def agg40 (h : (⟨S50000x40, .f32⟩ : BufTy).Contents (Elt F)) (s d : (⟨S800000, .i32⟩ : BufTy).Contents (Elt F))
    (e : (⟨S800000, .f32⟩ : BufTy).Contents (Elt F)) : (⟨S50000x40, .f32⟩ : BufTy).Contents (Elt F) :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 d)
    (mulf (Host.gather gather_S50000x40_S800000x1_S800000x40_1_0_n_n_0_1_140 h (srcCol s))
      (broadcastInDim S800000x40 ![0, 1] bcast_S800000x1_S800000x40_0_1 (broadcastInDim S800000x1 ![0] bcast_S800000_S800000x1_0 e)))

/-- A row's entries minus the row's maximum. -/
def shifted (z : (⟨S50000x40, .f32⟩ : BufTy).Contents (Elt F)) : (⟨S50000x40, .f32⟩ : BufTy).Contents (Elt F) :=
  subf z (broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x40_S50000_d1 h_S_))))

/-- The row-wise log-softmax. -/
def logSoftmax (z : (⟨S50000x40, .f32⟩ : BufTy).Contents (Elt F)) : (⟨S50000x40, .f32⟩ : BufTy).Contents (Elt F) :=
  subf (shifted z) (broadcastInDim S50000x40 ![0, 1] bcast_S50000x1_S50000x40_0_1
    (Host.log (broadcastInDim S50000x1 ![0] bcast_S50000_S50000x1_0
      (Host.reduceAdd (Host.exp (shifted z)) (constant S_ .f32 0x00000000#32) reducesTo_S50000x40_S50000_d1 h_S_))))

end Cert.ReferenceIdeal.Shared

end
-- ==== Proof.RefFold.lean ====
/-
  The reference's run, read as a fold. Its @main is 85 host operations in a line; cut into ten stretches — the edge
  lists and the first dense product; then per layer the aggregation, the bias (and positive part), and the next dense
  product; last the log-softmax — the buffers after the whole line are the stretches applied one after the other to
  the launch contents. Each stretch is read once, over ANY contents `V` it starts from, as the named function of the
  buffers it consumes; a buffer no operation of a stretch writes comes through it unchanged. Chained, the result
  array ends at the network's value (`Cert.Gcn`'s dense product, bias and positive part, with the shared aggregation
  and log-softmax between them) of the nine argument arrays.
-/
import proofs.«145066_j11639361372218_1_alg».proof.Proof.RefRun
import proofs.«145066_j11639361372218_1_alg».proof.Proof.RHost
import proofs.«145066_j11639361372218_1_alg».proof.Proof.Spec
import proofs.«145066_j11639361372218_1_alg».proof.Proof.LibDense
import proofs.«145066_j11639361372218_1_alg».proof.Proof.LibRowBias
import proofs.«145066_j11639361372218_1_alg».proof.Proof.LibTRef
import Idealize.ShloMosaic.Lib.Pipeline.Frame
import Idealize.ShloMosaic.Lib.StableHlo.Run
import Idealize.ShloMosaic.PureOps.Ideal.Laws

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.ReferenceIdeal.ValueP
open Idealize.ShloMosaic.ValueIdx

/-! ## The ten stretches of @main -/

section Segments

variable {F : FTy → Type} [FloatOps F]

/-- Operations 1 … 5 of @main. -/
abbrev segA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

/-- Operations 6 … 21 of @main. -/
abbrev segB1 : List (HloOp τ sig (Elt F)) :=
  [ nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v1 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v1 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v1 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_v4 main_v10 main_v11 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg2 main_v12 (broadcastInDim S800000x1 ![0] bcast_S800000_S800000x1_0 : (⟨S800000, .f32⟩ : BufTy).Contents (Elt F) → (⟨S800000x1, .f32⟩ : BufTy).Contents (Elt F)),
    unary main_v12 main_v13 (broadcastInDim S800000x256 ![0, 1] bcast_S800000x1_S800000x256_0_1 : (⟨S800000x1, .f32⟩ : BufTy).Contents (Elt F) → (⟨S800000x256, .f32⟩ : BufTy).Contents (Elt F)),
    binary main_v11 main_v13 main_v14 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v15 (broadcastInDim S50000x256 ![] bcast_S_S50000x256 : (⟨S_, .f32⟩ : BufTy).Contents (Elt F) → (⟨S50000x256, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Operations 22 … 27 of @main. -/
abbrev segB2 : List (HloOp τ sig (Elt F)) :=
  [ unary main_arg4 main_v18 (broadcastInDim S1x256 ![1] bcast_S256_S1x256_1 : (⟨S256, .f32⟩ : BufTy).Contents (Elt F) → (⟨S1x256, .f32⟩ : BufTy).Contents (Elt F)),
    unary main_v18 main_v19 (broadcastInDim S50000x256 ![0, 1] bcast_S1x256_S50000x256_0_1 : (⟨S1x256, .f32⟩ : BufTy).Contents (Elt F) → (⟨S50000x256, .f32⟩ : BufTy).Contents (Elt F)),
    binary main_v17 main_v19 main_v20 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v20) (TRef.of (T := ⟨S50000x256, .f32⟩) main_call0_v0) (TRef.of (T := ⟨S50000x256, .f32⟩) main_v21) maximumf ]

/-- Operations 28 … 28 of @main. -/
abbrev segC : List (HloOp τ sig (Elt F)) :=
  [ binary main_v21 main_arg5 main_v22 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 29 … 44 of @main. -/
abbrev segD1 : List (HloOp τ sig (Elt F)) :=
  [ nullary main_c_1 (constantI S_ 32 0#32),
    unary main_c_1 main_v23 (broadcastInDim S800000 ![] bcast_S_S800000 : (⟨S_, .i32⟩ : BufTy).Contents (Elt F) → (⟨S800000, .i32⟩ : BufTy).Contents (Elt F)),
    binary main_v1 main_v23 main_v24 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v25 (broadcastInDim S800000 ![] bcast_S_S800000 : (⟨S_, .i32⟩ : BufTy).Contents (Elt F) → (⟨S800000, .i32⟩ : BufTy).Contents (Elt F)),
    binary main_v1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg2 main_v30 (broadcastInDim S800000x1 ![0] bcast_S800000_S800000x1_0 : (⟨S800000, .f32⟩ : BufTy).Contents (Elt F) → (⟨S800000x1, .f32⟩ : BufTy).Contents (Elt F)),
    unary main_v30 main_v31 (broadcastInDim S800000x256 ![0, 1] bcast_S800000x1_S800000x256_0_1 : (⟨S800000x1, .f32⟩ : BufTy).Contents (Elt F) → (⟨S800000x256, .f32⟩ : BufTy).Contents (Elt F)),
    binary main_v29 main_v31 main_v32 (mulf : (⟨S800000x256, .f32⟩ : BufTy).Contents (Elt F) → (⟨S800000x256, .f32⟩ : BufTy).Contents (Elt F) → (⟨S800000x256, .f32⟩ : BufTy).Contents (Elt F)),
    nullary main_cst_3 (constant S_ .f32 0x00000000#32),
    unary main_cst_3 main_v33 (broadcastInDim S50000x256 ![] bcast_S_S50000x256 : (⟨S_, .f32⟩ : BufTy).Contents (Elt F) → (⟨S50000x256, .f32⟩ : BufTy).Contents (Elt F)),
    unary main_v3 main_v34 (broadcastInDim S800000x1 ![0] bcast_S800000_S800000x1_0 : (⟨S800000, .i32⟩ : BufTy).Contents (Elt F) → (⟨S800000x1, .i32⟩ : BufTy).Contents (Elt F)),
    ternary main_v33 main_v34 main_v32 main_v35 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Operations 45 … 50 of @main. -/
abbrev segD2 : List (HloOp τ sig (Elt F)) :=
  [ unary main_arg6 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v35 main_v37 main_v38 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v38) (TRef.of (T := ⟨S50000x256, .f32⟩) main_call1_v0) (TRef.of (T := ⟨S50000x256, .f32⟩) main_v39) maximumf ]

/-- Operations 51 … 51 of @main. -/
abbrev segE : List (HloOp τ sig (Elt F)) :=
  [ binary main_v39 main_arg7 main_v40 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)) ]

/-- Operations 52 … 67 of @main. -/
abbrev segF1 : List (HloOp τ sig (Elt F)) :=
  [ nullary main_c_4 (constantI S_ 32 0#32),
    unary main_c_4 main_v41 (broadcastInDim S800000 ![] bcast_S_S800000 : (⟨S_, .i32⟩ : BufTy).Contents (Elt F) → (⟨S800000, .i32⟩ : BufTy).Contents (Elt F)),
    binary main_v1 main_v41 main_v42 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v43 (broadcastInDim S800000 ![] bcast_S_S800000 : (⟨S_, .i32⟩ : BufTy).Contents (Elt F) → (⟨S800000, .i32⟩ : BufTy).Contents (Elt F)),
    binary main_v1 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_v1 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v40 main_v46 main_v47 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_arg2 main_v48 (broadcastInDim S800000x1 ![0] bcast_S800000_S800000x1_0 : (⟨S800000, .f32⟩ : BufTy).Contents (Elt F) → (⟨S800000x1, .f32⟩ : BufTy).Contents (Elt F)),
    unary main_v48 main_v49 (broadcastInDim S800000x40 ![0, 1] bcast_S800000x1_S800000x40_0_1 : (⟨S800000x1, .f32⟩ : BufTy).Contents (Elt F) → (⟨S800000x40, .f32⟩ : BufTy).Contents (Elt F)),
    binary main_v47 main_v49 main_v50 (mulf : (⟨S800000x40, .f32⟩ : BufTy).Contents (Elt F) → (⟨S800000x40, .f32⟩ : BufTy).Contents (Elt F) → (⟨S800000x40, .f32⟩ : BufTy).Contents (Elt F)),
    nullary main_cst_6 (constant S_ .f32 0x00000000#32),
    unary main_cst_6 main_v51 (broadcastInDim S50000x40 ![] bcast_S_S50000x40 : (⟨S_, .f32⟩ : BufTy).Contents (Elt F) → (⟨S50000x40, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)) ]

/-- Operations 68 … 70 of @main. -/
abbrev segF2 : List (HloOp τ sig (Elt F)) :=
  [ unary main_arg8 main_v54 (broadcastInDim S1x40 ![1] bcast_S40_S1x40_1 : (⟨S40, .f32⟩ : BufTy).Contents (Elt F) → (⟨S1x40, .f32⟩ : BufTy).Contents (Elt F)),
    unary main_v54 main_v55 (broadcastInDim S50000x40 ![0, 1] bcast_S1x40_S50000x40_0_1 : (⟨S1x40, .f32⟩ : BufTy).Contents (Elt F) → (⟨S50000x40, .f32⟩ : BufTy).Contents (Elt F)),
    binary main_v53 main_v55 main_v56 (addf : (⟨S50000x40, .f32⟩ : BufTy).Contents (Elt F) → (⟨S50000x40, .f32⟩ : BufTy).Contents (Elt F) → (⟨S50000x40, .f32⟩ : BufTy).Contents (Elt F)) ]

/-- Operations 71 … 85 of @main. -/
abbrev segG : List (HloOp τ sig (Elt F)) :=
  [ TRef.nullary (TRef.of (T := ⟨S_, .f32⟩) main_call2_cst) (constant S_ .f32 0xFF800000#32),
    TRef.binary (TRef.of (T := ⟨S50000x40, .f32⟩) main_v56) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v56) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v57) subf ]

set_option maxRecDepth 65536 in
/-- @main's operations are the stretches in order. -/
theorem ops_eq : (ops : List (HloOp τ sig (Elt F))) = segA ++ segB1 ++ segB2 ++ segC ++ segD1 ++ segD2 ++ segE ++ segF1 ++ segF2 ++ segG := rfl

end Segments

/-! ## The buffers at each boundary, and the run -/

section Boundaries

variable (m : (ℓ : Loc nD τ sig) → Buf (Elt Ideal) ℓ) (c : Dev nD)

def Y0 : Valuation τ sig (Elt Ideal) := launchContents m c
def Y1 : Valuation τ sig (Elt Ideal) := after segA (Y0 m c)
def Y2 : Valuation τ sig (Elt Ideal) := after segB1 (Y1 m c)
def Y3 : Valuation τ sig (Elt Ideal) := after segB2 (Y2 m c)
def Y4 : Valuation τ sig (Elt Ideal) := after segC (Y3 m c)
def Y5 : Valuation τ sig (Elt Ideal) := after segD1 (Y4 m c)
def Y6 : Valuation τ sig (Elt Ideal) := after segD2 (Y5 m c)
def Y7 : Valuation τ sig (Elt Ideal) := after segE (Y6 m c)
def Y8 : Valuation τ sig (Elt Ideal) := after segF1 (Y7 m c)
def Y9 : Valuation τ sig (Elt Ideal) := after segF2 (Y8 m c)
def Y10 : Valuation τ sig (Elt Ideal) := after segG (Y9 m c)

/-- The whole line from the launch contents is the last boundary. -/
theorem fold_eq : after (ops (F := Ideal)) (launchContents m c) = Y10 m c := by
  unfold Y10 Y9 Y8 Y7 Y6 Y5 Y4 Y3 Y2 Y1 Y0
  rw [ops_eq]
  simp only [StableHlo.after_append]

end Boundaries

/-- Every weakly fair execution of the reference terminates, nothing faulting, with every buffer at the last boundary. -/
theorem run_fold (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = Y10 m c (Proc.devRef .tc b) :=
  (θ_run defs _ _).mono (fun _ h c b => (h c b).trans (congrFun (fold_eq m c) _))
    (run_seq scopedRefs_eq scopedSems_eq defs main (fun _ => ops) main_eq (fun _ => ops_sub) m ρ)

/-! ## The reference's own three stages, typed as the operations type them -/

section Wrappers

def dot1 (l : (⟨S50000x128, .f32⟩ : BufTy).Contents (Elt Ideal)) (r : (⟨S128x256, .f32⟩ : BufTy).Contents (Elt Ideal)) :
    (⟨S50000x256, .f32⟩ : BufTy).Contents (Elt Ideal) :=
  Host.dotGeneral (F := Ideal) (φ₁ := .f32) (φ₂ := .f32) dot_S50000x128_S128x256_S50000x256_1_0_0_1_n_n none l r
def dot2 (l : (⟨S50000x256, .f32⟩ : BufTy).Contents (Elt Ideal)) (r : (⟨S256x256, .f32⟩ : BufTy).Contents (Elt Ideal)) :
    (⟨S50000x256, .f32⟩ : BufTy).Contents (Elt Ideal) :=
  Host.dotGeneral (F := Ideal) (φ₁ := .f32) (φ₂ := .f32) dot_S50000x256_S256x256_S50000x256_1_0_0_1_n_n none l r
def dot3 (l : (⟨S50000x256, .f32⟩ : BufTy).Contents (Elt Ideal)) (r : (⟨S256x40, .f32⟩ : BufTy).Contents (Elt Ideal)) :
    (⟨S50000x40, .f32⟩ : BufTy).Contents (Elt Ideal) :=
  Host.dotGeneral (F := Ideal) (φ₁ := .f32) (φ₂ := .f32) dot_S50000x256_S256x40_S50000x40_1_0_0_1_n_n none l r
/-- The bias vector broadcast to every row and added, then the maximum with the zero splat. -/
def addRelu256 (a : (⟨S50000x256, .f32⟩ : BufTy).Contents (Elt Ideal)) (b : (⟨S256, .f32⟩ : BufTy).Contents (Elt Ideal)) :
    (⟨S50000x256, .f32⟩ : BufTy).Contents (Elt Ideal) :=
  maximumf (F := Ideal) (φ := .f32) (addf (F := Ideal) (φ := .f32) a (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))
/-- The bias vector broadcast to every row and added. -/
def addRow40 (a : (⟨S50000x40, .f32⟩ : BufTy).Contents (Elt Ideal)) (b : (⟨S40, .f32⟩ : BufTy).Contents (Elt Ideal)) :
    (⟨S50000x40, .f32⟩ : BufTy).Contents (Elt Ideal) :=
  addf (F := Ideal) (φ := .f32) a (broadcastInDim S50000x40 ![0, 1] bcast_S1x40_S50000x40_0_1 (broadcastInDim S1x40 ![1] bcast_S40_S1x40_1 b))

end Wrappers

/-! ## Each stretch, read over any contents it starts from -/

section Reads

variable (V : Valuation τ sig (Elt Ideal))

theorem readA_v1 : after segA V (Proc.devRef .tc main_v1) = Shared.srcList (F := Ideal) (V (Proc.devRef .tc main_arg1)) := by
  simp only [segA]; after_results_simp <;> rfl
theorem readA_v3 : after segA V (Proc.devRef .tc main_v3) = Shared.dstList (F := Ideal) (V (Proc.devRef .tc main_arg1)) := by
  simp only [segA]; after_results_simp <;> rfl
theorem readA_v4 : after segA V (Proc.devRef .tc main_v4) = dot1 (V (Proc.devRef .tc main_arg0)) (V (Proc.devRef .tc main_arg3)) := by
  simp only [segA]; after_results_simp <;> rfl
set_option maxHeartbeats 8000000 in
theorem readB1_v17 : after segB1 V (Proc.devRef .tc main_v17)
    = Shared.agg256 (F := Ideal) (V (Proc.devRef .tc main_v4)) (V (Proc.devRef .tc main_v1)) (V (Proc.devRef .tc main_v3)) (V (Proc.devRef .tc main_arg2)) := by
  simp only [segB1]; after_results_simp <;> rfl
theorem readB2_v21 : after segB2 V (Proc.devRef .tc main_v21) = addRelu256 (V (Proc.devRef .tc main_v17)) (V (Proc.devRef .tc main_arg4)) := by
  simp only [segB2]; after_results_simp <;> rfl
theorem readC_v22 : after segC V (Proc.devRef .tc main_v22) = dot2 (V (Proc.devRef .tc main_v21)) (V (Proc.devRef .tc main_arg5)) := by
  simp only [segC]; after_results_simp <;> rfl
set_option maxHeartbeats 8000000 in
theorem readD1_v35 : after segD1 V (Proc.devRef .tc main_v35)
    = Shared.agg256 (F := Ideal) (V (Proc.devRef .tc main_v22)) (V (Proc.devRef .tc main_v1)) (V (Proc.devRef .tc main_v3)) (V (Proc.devRef .tc main_arg2)) := by
  simp only [segD1]; after_results_simp <;> rfl
theorem readD2_v39 : after segD2 V (Proc.devRef .tc main_v39) = addRelu256 (V (Proc.devRef .tc main_v35)) (V (Proc.devRef .tc main_arg6)) := by
  simp only [segD2]; after_results_simp <;> rfl
theorem readE_v40 : after segE V (Proc.devRef .tc main_v40) = dot3 (V (Proc.devRef .tc main_v39)) (V (Proc.devRef .tc main_arg7)) := by
  simp only [segE]; after_results_simp <;> rfl
set_option maxHeartbeats 8000000 in
theorem readF1_v53 : after segF1 V (Proc.devRef .tc main_v53)
    = Shared.agg40 (F := Ideal) (V (Proc.devRef .tc main_v40)) (V (Proc.devRef .tc main_v1)) (V (Proc.devRef .tc main_v3)) (V (Proc.devRef .tc main_arg2)) := by
  simp only [segF1]; after_results_simp <;> rfl
theorem readF2_v56 : after segF2 V (Proc.devRef .tc main_v56) = addRow40 (V (Proc.devRef .tc main_v53)) (V (Proc.devRef .tc main_arg8)) := by
  simp only [segF2]; after_results_simp <;> rfl
/-- The result buffer's and the logits buffer's types are the log-softmax's value types: the transports are the identity. -/
theorem toBuf_v57 (v : (⟨S50000x40, .f32⟩ : BufTy).Contents (Elt Ideal)) :
    (TRef.of main_v57 : TRef sig ⟨S50000x40, .f32⟩).toBuf v = v := rfl
theorem ofBuf_v56 (v : (Proc.devRef (τ := τ) .tc main_v56).ty.Contents (Elt Ideal)) :
    (TRef.of main_v56 : TRef sig ⟨S50000x40, .f32⟩).ofBuf v = v := rfl
set_option maxHeartbeats 2000000 in
theorem readG_v57 : after segG V (Proc.devRef .tc main_v57) = Shared.logSoftmax (F := Ideal) (V (Proc.devRef .tc main_v56)) := by
  simp only [segG]; after_results_simp
  simp only [Cert.LibTRef.ofBuf_toBuf, toBuf_v57, ofBuf_v56]
  rfl

/-! ### What a stretch does not write comes through it -/

theorem keepB1_main_v1 (V : Valuation τ sig (Elt Ideal)) : StableHlo.after segB1 V (Proc.devRef .tc main_v1) = V (Proc.devRef .tc main_v1) :=
  StableHlo.after_of_forall_not_mem (b := Proc.devRef .tc main_v1) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB2_main_v1 (V : Valuation τ sig (Elt Ideal)) : StableHlo.after segB2 V (Proc.devRef .tc main_v1) = V (Proc.devRef .tc main_v1) :=
  StableHlo.after_of_forall_not_mem (b := Proc.devRef .tc main_v1) _ _ (List.forall_iff_forall_mem.mp (by
    simp only [segB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepC_main_v1 (V : Valuation τ sig (Elt Ideal)) : StableHlo.after segC V (Proc.devRef .tc main_v1) = V (Proc.devRef .tc main_v1) :=
  StableHlo.after_of_forall_not_mem (b := Proc.devRef .tc main_v1) _ _ (List.forall_iff_forall_mem.mp (by
    simp only [segC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD1_main_v1 (V : Valuation τ sig (Elt Ideal)) : StableHlo.after segD1 V (Proc.devRef .tc main_v1) = V (Proc.devRef .tc main_v1) :=
  StableHlo.after_of_forall_not_mem (b := Proc.devRef .tc main_v1) _ _ (List.forall_iff_forall_mem.mp (by
    simp only [segD1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD2_main_v1 (V : Valuation τ sig (Elt Ideal)) : StableHlo.after segD2 V (Proc.devRef .tc main_v1) = V (Proc.devRef .tc main_v1) :=
  StableHlo.after_of_forall_not_mem (b := Proc.devRef .tc main_v1) _ _ (List.forall_iff_forall_mem.mp (by
    simp only [segD2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepE_main_v1 (V : Valuation τ sig (Elt Ideal)) : StableHlo.after segE V (Proc.devRef .tc main_v1) = V (Proc.devRef .tc main_v1) :=
  StableHlo.after_of_forall_not_mem (b := Proc.devRef .tc main_v1) _ _ (List.forall_iff_forall_mem.mp (by
    simp only [segE, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB1_main_v3 (V : Valuation τ sig (Elt Ideal)) : StableHlo.after segB1 V (Proc.devRef .tc main_v3) = V (Proc.devRef .tc main_v3) :=
  StableHlo.after_of_forall_not_mem (b := Proc.devRef .tc main_v3) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB2_main_v3 (V : Valuation τ sig (Elt Ideal)) : StableHlo.after segB2 V (Proc.devRef .tc main_v3) = V (Proc.devRef .tc main_v3) :=
  StableHlo.after_of_forall_not_mem (b := Proc.devRef .tc main_v3) _ _ (List.forall_iff_forall_mem.mp (by
    simp only [segB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepC_main_v3 (V : Valuation τ sig (Elt Ideal)) : StableHlo.after segC V (Proc.devRef .tc main_v3) = V (Proc.devRef .tc main_v3) :=
  StableHlo.after_of_forall_not_mem (b := Proc.devRef .tc main_v3) _ _ (List.forall_iff_forall_mem.mp (by
    simp only [segC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD1_main_v3 (V : Valuation τ sig (Elt Ideal)) : StableHlo.after segD1 V (Proc.devRef .tc main_v3) = V (Proc.devRef .tc main_v3) :=
  StableHlo.after_of_forall_not_mem (b := Proc.devRef .tc main_v3) _ _ (List.forall_iff_forall_mem.mp (by
    simp only [segD1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD2_main_v3 (V : Valuation τ sig (Elt Ideal)) : StableHlo.after segD2 V (Proc.devRef .tc main_v3) = V (Proc.devRef .tc main_v3) :=
  StableHlo.after_of_forall_not_mem (b := Proc.devRef .tc main_v3) _ _ (List.forall_iff_forall_mem.mp (by
    simp only [segD2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepE_main_v3 (V : Valuation τ sig (Elt Ideal)) : StableHlo.after segE V (Proc.devRef .tc main_v3) = V (Proc.devRef .tc main_v3) :=
  StableHlo.after_of_forall_not_mem (b := Proc.devRef .tc main_v3) _ _ (List.forall_iff_forall_mem.mp (by
    simp only [segE, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepA_main_arg2 (V : Valuation τ sig (Elt Ideal)) : StableHlo.after segA V (Proc.devRef .tc main_arg2) = V (Proc.devRef .tc main_arg2) :=
  StableHlo.after_of_forall_not_mem (b := Proc.devRef .tc main_arg2) _ _ (List.forall_iff_forall_mem.mp (by
    simp only [segA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB1_main_arg2 (V : Valuation τ sig (Elt Ideal)) : StableHlo.after segB1 V (Proc.devRef .tc main_arg2) = V (Proc.devRef .tc main_arg2) :=
  StableHlo.after_of_forall_not_mem (b := Proc.devRef .tc main_arg2) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB2_main_arg2 (V : Valuation τ sig (Elt Ideal)) : StableHlo.after segB2 V (Proc.devRef .tc main_arg2) = V (Proc.devRef .tc main_arg2) :=
  StableHlo.after_of_forall_not_mem (b := Proc.devRef .tc main_arg2) _ _ (List.forall_iff_forall_mem.mp (by
    simp only [segB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepC_main_arg2 (V : Valuation τ sig (Elt Ideal)) : StableHlo.after segC V (Proc.devRef .tc main_arg2) = V (Proc.devRef .tc main_arg2) :=
  StableHlo.after_of_forall_not_mem (b := Proc.devRef .tc main_arg2) _ _ (List.forall_iff_forall_mem.mp (by
    simp only [segC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD1_main_arg2 (V : Valuation τ sig (Elt Ideal)) : StableHlo.after segD1 V (Proc.devRef .tc main_arg2) = V (Proc.devRef .tc main_arg2) :=
  StableHlo.after_of_forall_not_mem (b := Proc.devRef .tc main_arg2) _ _ (List.forall_iff_forall_mem.mp (by
    simp only [segD1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD2_main_arg2 (V : Valuation τ sig (Elt Ideal)) : StableHlo.after segD2 V (Proc.devRef .tc main_arg2) = V (Proc.devRef .tc main_arg2) :=
  StableHlo.after_of_forall_not_mem (b := Proc.devRef .tc main_arg2) _ _ (List.forall_iff_forall_mem.mp (by
    simp only [segD2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepE_main_arg2 (V : Valuation τ sig (Elt Ideal)) : StableHlo.after segE V (Proc.devRef .tc main_arg2) = V (Proc.devRef .tc main_arg2) :=
  StableHlo.after_of_forall_not_mem (b := Proc.devRef .tc main_arg2) _ _ (List.forall_iff_forall_mem.mp (by
    simp only [segE, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepA_main_arg4 (V : Valuation τ sig (Elt Ideal)) : StableHlo.after segA V (Proc.devRef .tc main_arg4) = V (Proc.devRef .tc main_arg4) :=
  StableHlo.after_of_forall_not_mem (b := Proc.devRef .tc main_arg4) _ _ (List.forall_iff_forall_mem.mp (by
    simp only [segA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB1_main_arg4 (V : Valuation τ sig (Elt Ideal)) : StableHlo.after segB1 V (Proc.devRef .tc main_arg4) = V (Proc.devRef .tc main_arg4) :=
  StableHlo.after_of_forall_not_mem (b := Proc.devRef .tc main_arg4) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepA_main_arg5 (V : Valuation τ sig (Elt Ideal)) : StableHlo.after segA V (Proc.devRef .tc main_arg5) = V (Proc.devRef .tc main_arg5) :=
  StableHlo.after_of_forall_not_mem (b := Proc.devRef .tc main_arg5) _ _ (List.forall_iff_forall_mem.mp (by
    simp only [segA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB1_main_arg5 (V : Valuation τ sig (Elt Ideal)) : StableHlo.after segB1 V (Proc.devRef .tc main_arg5) = V (Proc.devRef .tc main_arg5) :=
  StableHlo.after_of_forall_not_mem (b := Proc.devRef .tc main_arg5) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB2_main_arg5 (V : Valuation τ sig (Elt Ideal)) : StableHlo.after segB2 V (Proc.devRef .tc main_arg5) = V (Proc.devRef .tc main_arg5) :=
  StableHlo.after_of_forall_not_mem (b := Proc.devRef .tc main_arg5) _ _ (List.forall_iff_forall_mem.mp (by
    simp only [segB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepA_main_arg6 (V : Valuation τ sig (Elt Ideal)) : StableHlo.after segA V (Proc.devRef .tc main_arg6) = V (Proc.devRef .tc main_arg6) :=
  StableHlo.after_of_forall_not_mem (b := Proc.devRef .tc main_arg6) _ _ (List.forall_iff_forall_mem.mp (by
    simp only [segA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB1_main_arg6 (V : Valuation τ sig (Elt Ideal)) : StableHlo.after segB1 V (Proc.devRef .tc main_arg6) = V (Proc.devRef .tc main_arg6) :=
  StableHlo.after_of_forall_not_mem (b := Proc.devRef .tc main_arg6) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB2_main_arg6 (V : Valuation τ sig (Elt Ideal)) : StableHlo.after segB2 V (Proc.devRef .tc main_arg6) = V (Proc.devRef .tc main_arg6) :=
  StableHlo.after_of_forall_not_mem (b := Proc.devRef .tc main_arg6) _ _ (List.forall_iff_forall_mem.mp (by
    simp only [segB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepC_main_arg6 (V : Valuation τ sig (Elt Ideal)) : StableHlo.after segC V (Proc.devRef .tc main_arg6) = V (Proc.devRef .tc main_arg6) :=
  StableHlo.after_of_forall_not_mem (b := Proc.devRef .tc main_arg6) _ _ (List.forall_iff_forall_mem.mp (by
    simp only [segC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD1_main_arg6 (V : Valuation τ sig (Elt Ideal)) : StableHlo.after segD1 V (Proc.devRef .tc main_arg6) = V (Proc.devRef .tc main_arg6) :=
  StableHlo.after_of_forall_not_mem (b := Proc.devRef .tc main_arg6) _ _ (List.forall_iff_forall_mem.mp (by
    simp only [segD1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepA_main_arg7 (V : Valuation τ sig (Elt Ideal)) : StableHlo.after segA V (Proc.devRef .tc main_arg7) = V (Proc.devRef .tc main_arg7) :=
  StableHlo.after_of_forall_not_mem (b := Proc.devRef .tc main_arg7) _ _ (List.forall_iff_forall_mem.mp (by
    simp only [segA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB1_main_arg7 (V : Valuation τ sig (Elt Ideal)) : StableHlo.after segB1 V (Proc.devRef .tc main_arg7) = V (Proc.devRef .tc main_arg7) :=
  StableHlo.after_of_forall_not_mem (b := Proc.devRef .tc main_arg7) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB2_main_arg7 (V : Valuation τ sig (Elt Ideal)) : StableHlo.after segB2 V (Proc.devRef .tc main_arg7) = V (Proc.devRef .tc main_arg7) :=
  StableHlo.after_of_forall_not_mem (b := Proc.devRef .tc main_arg7) _ _ (List.forall_iff_forall_mem.mp (by
    simp only [segB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepC_main_arg7 (V : Valuation τ sig (Elt Ideal)) : StableHlo.after segC V (Proc.devRef .tc main_arg7) = V (Proc.devRef .tc main_arg7) :=
  StableHlo.after_of_forall_not_mem (b := Proc.devRef .tc main_arg7) _ _ (List.forall_iff_forall_mem.mp (by
    simp only [segC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD1_main_arg7 (V : Valuation τ sig (Elt Ideal)) : StableHlo.after segD1 V (Proc.devRef .tc main_arg7) = V (Proc.devRef .tc main_arg7) :=
  StableHlo.after_of_forall_not_mem (b := Proc.devRef .tc main_arg7) _ _ (List.forall_iff_forall_mem.mp (by
    simp only [segD1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD2_main_arg7 (V : Valuation τ sig (Elt Ideal)) : StableHlo.after segD2 V (Proc.devRef .tc main_arg7) = V (Proc.devRef .tc main_arg7) :=
  StableHlo.after_of_forall_not_mem (b := Proc.devRef .tc main_arg7) _ _ (List.forall_iff_forall_mem.mp (by
    simp only [segD2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepA_main_arg8 (V : Valuation τ sig (Elt Ideal)) : StableHlo.after segA V (Proc.devRef .tc main_arg8) = V (Proc.devRef .tc main_arg8) :=
  StableHlo.after_of_forall_not_mem (b := Proc.devRef .tc main_arg8) _ _ (List.forall_iff_forall_mem.mp (by
    simp only [segA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB1_main_arg8 (V : Valuation τ sig (Elt Ideal)) : StableHlo.after segB1 V (Proc.devRef .tc main_arg8) = V (Proc.devRef .tc main_arg8) :=
  StableHlo.after_of_forall_not_mem (b := Proc.devRef .tc main_arg8) _ _ (List.forall_iff_forall_mem.mp (by
    simp only [segB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepB2_main_arg8 (V : Valuation τ sig (Elt Ideal)) : StableHlo.after segB2 V (Proc.devRef .tc main_arg8) = V (Proc.devRef .tc main_arg8) :=
  StableHlo.after_of_forall_not_mem (b := Proc.devRef .tc main_arg8) _ _ (List.forall_iff_forall_mem.mp (by
    simp only [segB2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepC_main_arg8 (V : Valuation τ sig (Elt Ideal)) : StableHlo.after segC V (Proc.devRef .tc main_arg8) = V (Proc.devRef .tc main_arg8) :=
  StableHlo.after_of_forall_not_mem (b := Proc.devRef .tc main_arg8) _ _ (List.forall_iff_forall_mem.mp (by
    simp only [segC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD1_main_arg8 (V : Valuation τ sig (Elt Ideal)) : StableHlo.after segD1 V (Proc.devRef .tc main_arg8) = V (Proc.devRef .tc main_arg8) :=
  StableHlo.after_of_forall_not_mem (b := Proc.devRef .tc main_arg8) _ _ (List.forall_iff_forall_mem.mp (by
    simp only [segD1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepD2_main_arg8 (V : Valuation τ sig (Elt Ideal)) : StableHlo.after segD2 V (Proc.devRef .tc main_arg8) = V (Proc.devRef .tc main_arg8) :=
  StableHlo.after_of_forall_not_mem (b := Proc.devRef .tc main_arg8) _ _ (List.forall_iff_forall_mem.mp (by
    simp only [segD2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepE_main_arg8 (V : Valuation τ sig (Elt Ideal)) : StableHlo.after segE V (Proc.devRef .tc main_arg8) = V (Proc.devRef .tc main_arg8) :=
  StableHlo.after_of_forall_not_mem (b := Proc.devRef .tc main_arg8) _ _ (List.forall_iff_forall_mem.mp (by
    simp only [segE, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keepF1_main_arg8 (V : Valuation τ sig (Elt Ideal)) : StableHlo.after segF1 V (Proc.devRef .tc main_arg8) = V (Proc.devRef .tc main_arg8) :=
  StableHlo.after_of_forall_not_mem (b := Proc.devRef .tc main_arg8) _ _ (List.forall_iff_forall_mem.mp (by
    simp only [segF1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Reads

end Cert.ReferenceIdeal.Fold

end
-- ==== Proof.Bridge.lean ====
/-
  The host operations the two programs share, named once in each program's namespace, are the same functions: the two
  printings differ only in the names of their shape and dimension records.
-/
import proofs.«145066_j11639361372218_1_alg».proof.Proof.KHost
import proofs.«145066_j11639361372218_1_alg».proof.Proof.RHost
import Idealize.ShloMosaic.PureOps.Ideal

noncomputable section

namespace Cert.Bridge

open Idealize.ShloMosaic

theorem srcList_eq (x : (⟨Cert.ReferenceIdeal.S2x800000, .i32⟩ : BufTy).Contents (Elt Ideal)) :
    Cert.ReferenceIdeal.Shared.srcList (F := Ideal) x = Cert.KernelIdeal.Shared.srcList (F := Ideal) x := rfl
theorem dstList_eq (x : (⟨Cert.ReferenceIdeal.S2x800000, .i32⟩ : BufTy).Contents (Elt Ideal)) :
    Cert.ReferenceIdeal.Shared.dstList (F := Ideal) x = Cert.KernelIdeal.Shared.dstList (F := Ideal) x := rfl
theorem agg256_eq : @Cert.ReferenceIdeal.Shared.agg256 Ideal _ = @Cert.KernelIdeal.Shared.agg256 Ideal _ := rfl
theorem agg40_eq : @Cert.ReferenceIdeal.Shared.agg40 Ideal _ = @Cert.KernelIdeal.Shared.agg40 Ideal _ := rfl
theorem logSoftmax_eq : @Cert.ReferenceIdeal.Shared.logSoftmax Ideal _ = @Cert.KernelIdeal.Shared.logSoftmax Ideal _ := rfl

end Cert.Bridge

end
-- ==== Proof.RefNet.lean ====
/-
  The reference's buffers, boundary by boundary, chained from the launch contents: its dense products are
  `Cert.Gcn.dense` (the host's product read at an entry is the same sum over k), its bias rows broadcast along both axes
  and added are `Cert.Gcn.bias` of the row, its maximum with the zero splat the positive part; the aggregation and the
  log-softmax are the kernel program's own. So the reference's result array at its last boundary is the same network's
  value of the nine argument arrays.
-/
import proofs.«145066_j11639361372218_1_alg».proof.Proof.RefFold
import proofs.«145066_j11639361372218_1_alg».proof.Proof.Net
import proofs.«145066_j11639361372218_1_alg».proof.Proof.Bridge

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo
open Idealize.ShloMosaic.ValueIdx

/-! ## The three stages the reference computes on the host, as the index-by-index functions -/

theorem dotA (x : S50000x128.Idx → EReal) (w : S128x256.Idx → EReal) :
    dot1 x w = Cert.Gcn.dense (M := 50000) (K := 128) (N := 256) x w := by
  funext i
  obtain ⟨p, q, rfl⟩ : ∃ (p : Fin 50000) (q : Fin 256), i = ix2 p q := ⟨i 0, i 1, eq_ix2 i⟩
  exact Cert.LibDense.plain_dotGeneral_apply (M := 50000) (K := 128) (N := 256) none _ x w p q

theorem dotB (x : S50000x256.Idx → EReal) (w : S256x256.Idx → EReal) :
    dot2 x w = Cert.Gcn.dense (M := 50000) (K := 256) (N := 256) x w := by
  funext i
  obtain ⟨p, q, rfl⟩ : ∃ (p : Fin 50000) (q : Fin 256), i = ix2 p q := ⟨i 0, i 1, eq_ix2 i⟩
  exact Cert.LibDense.plain_dotGeneral_apply (M := 50000) (K := 256) (N := 256) none _ x w p q

theorem dotC (x : S50000x256.Idx → EReal) (w : S256x40.Idx → EReal) :
    dot3 x w = Cert.Gcn.dense (M := 50000) (K := 256) (N := 40) x w := by
  funext i
  obtain ⟨p, q, rfl⟩ : ∃ (p : Fin 50000) (q : Fin 40), i = ix2 p q := ⟨i 0, i 1, eq_ix2 i⟩
  exact Cert.LibDense.plain_dotGeneral_apply (M := 50000) (K := 256) (N := 40) none _ x w p q

/-- The bias vector broadcast to every row and added, then the maximum with the zero splat. -/
theorem biasRelu256 (A : S50000x256.Idx → EReal) (b : S256.Idx → EReal) :
    addRelu256 A b = Cert.Gcn.biasRelu (M := 50000) (N := 256) A (Cert.LibRowBias.rowOf b) := by
  funext i
  obtain ⟨p, q, rfl⟩ : ∃ (p : Fin 50000) (q : Fin 256), i = ix2 p q := ⟨i 0, i 1, eq_ix2 i⟩
  show max (A (ix2 p q) + broadcastInDim S50000x256 ![0, 1] bcast_S1x256_S50000x256_0_1 (broadcastInDim S1x256 ![1] bcast_S256_S1x256_1 b) (ix2 p q))
      (Ideal.ofBits .f32 0x00000000#32) = _
  rw [Cert.LibRowBias.bcast_row_apply b bcast_S256_S1x256_1 bcast_S1x256_S50000x256_0_1 p q, Ideal.ofBits_zero_f32]
  rfl

/-- The bias vector broadcast to every row and added. -/
theorem bias40 (A : S50000x40.Idx → EReal) (b : S40.Idx → EReal) :
    addRow40 A b = Cert.Gcn.bias (M := 50000) (N := 40) A (Cert.LibRowBias.rowOf b) := by
  funext i
  obtain ⟨p, q, rfl⟩ : ∃ (p : Fin 50000) (q : Fin 40), i = ix2 p q := ⟨i 0, i 1, eq_ix2 i⟩
  show A (ix2 p q) + broadcastInDim S50000x40 ![0, 1] bcast_S1x40_S50000x40_0_1 (broadcastInDim S1x40 ![1] bcast_S40_S1x40_1 b) (ix2 p q) = _
  rw [Cert.LibRowBias.bcast_row_apply b bcast_S40_S1x40_1 bcast_S1x40_S50000x40_0_1 p q]
  rfl

/-! ## The chain from the launch contents -/

section Chain

variable (m : (ℓ : Loc nD τ sig) → Buf (Elt Ideal) ℓ) (c : Dev nD)

/-- The nine argument arrays as launched. -/
abbrev B0 : (⟨2, ![50000, 128]⟩ : Shape).Idx → EReal := m ((c.tc : Thread nD τ).loc main_arg0)
abbrev B1 : (⟨Cert.KernelIdeal.S2x800000, .i32⟩ : BufTy).Contents (Elt Ideal) := m ((c.tc : Thread nD τ).loc main_arg1)
abbrev B2 : (⟨Cert.KernelIdeal.S800000, .f32⟩ : BufTy).Contents (Elt Ideal) := m ((c.tc : Thread nD τ).loc main_arg2)
abbrev B3 : (⟨2, ![128, 256]⟩ : Shape).Idx → EReal := m ((c.tc : Thread nD τ).loc main_arg3)
abbrev B4 : (⟨1, ![256]⟩ : Shape).Idx → EReal := m ((c.tc : Thread nD τ).loc main_arg4)
abbrev B5 : (⟨2, ![256, 256]⟩ : Shape).Idx → EReal := m ((c.tc : Thread nD τ).loc main_arg5)
abbrev B6 : (⟨1, ![256]⟩ : Shape).Idx → EReal := m ((c.tc : Thread nD τ).loc main_arg6)
abbrev B7 : (⟨2, ![256, 40]⟩ : Shape).Idx → EReal := m ((c.tc : Thread nD τ).loc main_arg7)
abbrev B8 : (⟨1, ![40]⟩ : Shape).Idx → EReal := m ((c.tc : Thread nD τ).loc main_arg8)

/-! ### The edge lists, the edge weights and the biases where each layer reads them -/

theorem src_at1 : Y1 m c (Proc.devRef .tc main_v1) = Cert.KernelIdeal.Shared.srcList (F := Ideal) (B1 m c) :=
  (readA_v1 (Y0 m c)).trans (Cert.Bridge.srcList_eq _)
theorem dst_at1 : Y1 m c (Proc.devRef .tc main_v3) = Cert.KernelIdeal.Shared.dstList (F := Ideal) (B1 m c) :=
  (readA_v3 (Y0 m c)).trans (Cert.Bridge.dstList_eq _)
theorem src_at4 : Y4 m c (Proc.devRef .tc main_v1) = Cert.KernelIdeal.Shared.srcList (F := Ideal) (B1 m c) :=
  ((keepC_main_v1 (Y3 m c)).trans ((keepB2_main_v1 (Y2 m c)).trans (keepB1_main_v1 (Y1 m c)))).trans (src_at1 m c)
theorem dst_at4 : Y4 m c (Proc.devRef .tc main_v3) = Cert.KernelIdeal.Shared.dstList (F := Ideal) (B1 m c) :=
  ((keepC_main_v3 (Y3 m c)).trans ((keepB2_main_v3 (Y2 m c)).trans (keepB1_main_v3 (Y1 m c)))).trans (dst_at1 m c)
theorem src_at7 : Y7 m c (Proc.devRef .tc main_v1) = Cert.KernelIdeal.Shared.srcList (F := Ideal) (B1 m c) :=
  ((keepE_main_v1 (Y6 m c)).trans ((keepD2_main_v1 (Y5 m c)).trans ((keepD1_main_v1 (Y4 m c)).trans ((keepC_main_v1 (Y3 m c)).trans ((keepB2_main_v1 (Y2 m c)).trans (keepB1_main_v1 (Y1 m c))))))).trans (src_at1 m c)
theorem dst_at7 : Y7 m c (Proc.devRef .tc main_v3) = Cert.KernelIdeal.Shared.dstList (F := Ideal) (B1 m c) :=
  ((keepE_main_v3 (Y6 m c)).trans ((keepD2_main_v3 (Y5 m c)).trans ((keepD1_main_v3 (Y4 m c)).trans ((keepC_main_v3 (Y3 m c)).trans ((keepB2_main_v3 (Y2 m c)).trans (keepB1_main_v3 (Y1 m c))))))).trans (dst_at1 m c)
theorem wts_at1 : Y1 m c (Proc.devRef .tc main_arg2) = B2 m c :=
  keepA_main_arg2 (Y0 m c)
theorem wts_at4 : Y4 m c (Proc.devRef .tc main_arg2) = B2 m c :=
  (keepC_main_arg2 (Y3 m c)).trans ((keepB2_main_arg2 (Y2 m c)).trans ((keepB1_main_arg2 (Y1 m c)).trans (keepA_main_arg2 (Y0 m c))))
theorem wts_at7 : Y7 m c (Proc.devRef .tc main_arg2) = B2 m c :=
  (keepE_main_arg2 (Y6 m c)).trans ((keepD2_main_arg2 (Y5 m c)).trans ((keepD1_main_arg2 (Y4 m c)).trans ((keepC_main_arg2 (Y3 m c)).trans ((keepB2_main_arg2 (Y2 m c)).trans ((keepB1_main_arg2 (Y1 m c)).trans (keepA_main_arg2 (Y0 m c)))))))
theorem b1_at2 : Y2 m c (Proc.devRef .tc main_arg4) = (B4 m c : S256.Idx → EReal) :=
  (keepB1_main_arg4 (Y1 m c)).trans (keepA_main_arg4 (Y0 m c))
theorem w2_at3 : Y3 m c (Proc.devRef .tc main_arg5) = (B5 m c : S256x256.Idx → EReal) :=
  (keepB2_main_arg5 (Y2 m c)).trans ((keepB1_main_arg5 (Y1 m c)).trans (keepA_main_arg5 (Y0 m c)))
theorem b2_at5 : Y5 m c (Proc.devRef .tc main_arg6) = (B6 m c : S256.Idx → EReal) :=
  (keepD1_main_arg6 (Y4 m c)).trans ((keepC_main_arg6 (Y3 m c)).trans ((keepB2_main_arg6 (Y2 m c)).trans ((keepB1_main_arg6 (Y1 m c)).trans (keepA_main_arg6 (Y0 m c)))))
theorem w3_at6 : Y6 m c (Proc.devRef .tc main_arg7) = (B7 m c : S256x40.Idx → EReal) :=
  (keepD2_main_arg7 (Y5 m c)).trans ((keepD1_main_arg7 (Y4 m c)).trans ((keepC_main_arg7 (Y3 m c)).trans ((keepB2_main_arg7 (Y2 m c)).trans ((keepB1_main_arg7 (Y1 m c)).trans (keepA_main_arg7 (Y0 m c))))))
theorem b3_at8 : Y8 m c (Proc.devRef .tc main_arg8) = (B8 m c : S40.Idx → EReal) :=
  (keepF1_main_arg8 (Y7 m c)).trans ((keepE_main_arg8 (Y6 m c)).trans ((keepD2_main_arg8 (Y5 m c)).trans ((keepD1_main_arg8 (Y4 m c)).trans ((keepC_main_arg8 (Y3 m c)).trans ((keepB2_main_arg8 (Y2 m c)).trans ((keepB1_main_arg8 (Y1 m c)).trans (keepA_main_arg8 (Y0 m c))))))))

/-! ### Layer by layer -/

theorem dense1 : Y1 m c (Proc.devRef .tc main_v4) = Cert.Gcn.dense (M := 50000) (K := 128) (N := 256) (B0 m c) (B3 m c) :=
  (readA_v4 (Y0 m c)).trans (dotA _ _)

theorem agg1 : Y2 m c (Proc.devRef .tc main_v17) = Cert.KernelIdeal.Shared.agg256 (F := Ideal)
    (Cert.Gcn.dense (M := 50000) (K := 128) (N := 256) (B0 m c) (B3 m c))
    (Cert.KernelIdeal.Shared.srcList (F := Ideal) (B1 m c)) (Cert.KernelIdeal.Shared.dstList (F := Ideal) (B1 m c)) (B2 m c) := by
  refine (readB1_v17 (Y1 m c)).trans ?_
  rw [dense1 m c, src_at1 m c, dst_at1 m c, wts_at1 m c, Cert.Bridge.agg256_eq]

theorem hidden1 : Y3 m c (Proc.devRef .tc main_v21) = Cert.KernelIdeal.Net.hidden (B0 m c) (B3 m c) (B4 m c) (B1 m c) (B2 m c) := by
  refine (readB2_v21 (Y2 m c)).trans ?_
  rw [agg1 m c, b1_at2 m c]
  exact biasRelu256 _ _

theorem dense2 : Y4 m c (Proc.devRef .tc main_v22) = Cert.Gcn.dense (M := 50000) (K := 256) (N := 256) (Cert.KernelIdeal.Net.hidden (B0 m c) (B3 m c) (B4 m c) (B1 m c) (B2 m c)) (B5 m c) := by
  refine (readC_v22 (Y3 m c)).trans ?_
  rw [hidden1 m c, w2_at3 m c]
  exact dotB _ _

theorem agg2 : Y5 m c (Proc.devRef .tc main_v35) = Cert.KernelIdeal.Shared.agg256 (F := Ideal)
    (Cert.Gcn.dense (M := 50000) (K := 256) (N := 256) (Cert.KernelIdeal.Net.hidden (B0 m c) (B3 m c) (B4 m c) (B1 m c) (B2 m c)) (B5 m c))
    (Cert.KernelIdeal.Shared.srcList (F := Ideal) (B1 m c)) (Cert.KernelIdeal.Shared.dstList (F := Ideal) (B1 m c)) (B2 m c) := by
  refine (readD1_v35 (Y4 m c)).trans ?_
  rw [dense2 m c, src_at4 m c, dst_at4 m c, wts_at4 m c, Cert.Bridge.agg256_eq]

theorem hidden2 : Y6 m c (Proc.devRef .tc main_v39) = Cert.KernelIdeal.Net.hidden (Cert.KernelIdeal.Net.hidden (B0 m c) (B3 m c) (B4 m c) (B1 m c) (B2 m c)) (B5 m c) (B6 m c) (B1 m c) (B2 m c) := by
  refine (readD2_v39 (Y5 m c)).trans ?_
  rw [agg2 m c, b2_at5 m c]
  exact biasRelu256 _ _

theorem dense3 : Y7 m c (Proc.devRef .tc main_v40) = Cert.Gcn.dense (M := 50000) (K := 256) (N := 40) (Cert.KernelIdeal.Net.hidden (Cert.KernelIdeal.Net.hidden (B0 m c) (B3 m c) (B4 m c) (B1 m c) (B2 m c)) (B5 m c) (B6 m c) (B1 m c) (B2 m c)) (B7 m c) := by
  refine (readE_v40 (Y6 m c)).trans ?_
  rw [hidden2 m c, w3_at6 m c]
  exact dotC _ _

theorem agg3 : Y8 m c (Proc.devRef .tc main_v53) = Cert.KernelIdeal.Shared.agg40 (F := Ideal)
    (Cert.Gcn.dense (M := 50000) (K := 256) (N := 40) (Cert.KernelIdeal.Net.hidden (Cert.KernelIdeal.Net.hidden (B0 m c) (B3 m c) (B4 m c) (B1 m c) (B2 m c)) (B5 m c) (B6 m c) (B1 m c) (B2 m c)) (B7 m c))
    (Cert.KernelIdeal.Shared.srcList (F := Ideal) (B1 m c)) (Cert.KernelIdeal.Shared.dstList (F := Ideal) (B1 m c)) (B2 m c) := by
  refine (readF1_v53 (Y7 m c)).trans ?_
  rw [dense3 m c, src_at7 m c, dst_at7 m c, wts_at7 m c, Cert.Bridge.agg40_eq]

theorem logits3 : Y9 m c (Proc.devRef .tc main_v56) = Cert.KernelIdeal.Net.logits (Cert.KernelIdeal.Net.hidden (Cert.KernelIdeal.Net.hidden (B0 m c) (B3 m c) (B4 m c) (B1 m c) (B2 m c)) (B5 m c) (B6 m c) (B1 m c) (B2 m c)) (B7 m c) (B8 m c) (B1 m c) (B2 m c) := by
  refine (readF2_v56 (Y8 m c)).trans ?_
  rw [agg3 m c, b3_at8 m c]
  exact bias40 _ _

/-- The reference's result array at its last boundary is the network's value of the nine arguments. -/
theorem result : Y10 m c (Proc.devRef .tc main_v57)
    = Cert.KernelIdeal.Net.out (B0 m c) (B1 m c) (B2 m c) (B3 m c) (B4 m c) (B5 m c) (B6 m c) (B7 m c) (B8 m c) := by
  refine (readG_v57 (Y9 m c)).trans ?_
  rw [logits3 m c, Cert.Bridge.logSoftmax_eq]
  rfl

end Chain

/-! ## The run, read at the result and at the arguments -/

/-! No operation of the line writes an argument array. -/

set_option maxHeartbeats 4000000 in
theorem kept_arg0 (V : Valuation τ sig (Elt Ideal)) :
    StableHlo.after (Cert.ReferenceIdeal.ValueP.ops (F := Ideal)) V (Proc.devRef .tc main_arg0) = V (Proc.devRef .tc main_arg0) :=
  StableHlo.after_of_forall_not_mem (b := Proc.devRef .tc main_arg0) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg1 (V : Valuation τ sig (Elt Ideal)) :
    StableHlo.after (Cert.ReferenceIdeal.ValueP.ops (F := Ideal)) V (Proc.devRef .tc main_arg1) = V (Proc.devRef .tc main_arg1) :=
  StableHlo.after_of_forall_not_mem (b := Proc.devRef .tc main_arg1) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg2 (V : Valuation τ sig (Elt Ideal)) :
    StableHlo.after (Cert.ReferenceIdeal.ValueP.ops (F := Ideal)) V (Proc.devRef .tc main_arg2) = V (Proc.devRef .tc main_arg2) :=
  StableHlo.after_of_forall_not_mem (b := Proc.devRef .tc main_arg2) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg3 (V : Valuation τ sig (Elt Ideal)) :
    StableHlo.after (Cert.ReferenceIdeal.ValueP.ops (F := Ideal)) V (Proc.devRef .tc main_arg3) = V (Proc.devRef .tc main_arg3) :=
  StableHlo.after_of_forall_not_mem (b := Proc.devRef .tc main_arg3) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg4 (V : Valuation τ sig (Elt Ideal)) :
    StableHlo.after (Cert.ReferenceIdeal.ValueP.ops (F := Ideal)) V (Proc.devRef .tc main_arg4) = V (Proc.devRef .tc main_arg4) :=
  StableHlo.after_of_forall_not_mem (b := Proc.devRef .tc main_arg4) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg5 (V : Valuation τ sig (Elt Ideal)) :
    StableHlo.after (Cert.ReferenceIdeal.ValueP.ops (F := Ideal)) V (Proc.devRef .tc main_arg5) = V (Proc.devRef .tc main_arg5) :=
  StableHlo.after_of_forall_not_mem (b := Proc.devRef .tc main_arg5) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg6 (V : Valuation τ sig (Elt Ideal)) :
    StableHlo.after (Cert.ReferenceIdeal.ValueP.ops (F := Ideal)) V (Proc.devRef .tc main_arg6) = V (Proc.devRef .tc main_arg6) :=
  StableHlo.after_of_forall_not_mem (b := Proc.devRef .tc main_arg6) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg7 (V : Valuation τ sig (Elt Ideal)) :
    StableHlo.after (Cert.ReferenceIdeal.ValueP.ops (F := Ideal)) V (Proc.devRef .tc main_arg7) = V (Proc.devRef .tc main_arg7) :=
  StableHlo.after_of_forall_not_mem (b := Proc.devRef .tc main_arg7) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
theorem kept_arg8 (V : Valuation τ sig (Elt Ideal)) :
    StableHlo.after (Cert.ReferenceIdeal.ValueP.ops (F := Ideal)) V (Proc.devRef .tc main_arg8) = V (Proc.devRef .tc main_arg8) :=
  StableHlo.after_of_forall_not_mem (b := Proc.devRef .tc main_arg8) _ _ (List.forall_iff_forall_mem.mp (by
    simp only [Cert.ReferenceIdeal.ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

open Cert.ReferenceIdeal.ValueP in
/-- Every weakly fair execution of the reference terminates, nothing faulting, with the result array at the network's
    value of the arguments and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57)
        = Cert.KernelIdeal.Net.out (B0 m c) (B1 m c) (B2 m c) (B3 m c) (B4 m c) (B5 m c) (B6 m c) (B7 m c) (B8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v57).trans ((congrFun (fold_eq m c) _).trans (result m c)),
     (h c main_arg0).trans (kept_arg0 _), (h c main_arg1).trans (kept_arg1 _), (h c main_arg2).trans (kept_arg2 _),
     (h c main_arg3).trans (kept_arg3 _), (h c main_arg4).trans (kept_arg4 _), (h c main_arg5).trans (kept_arg5 _),
     (h c main_arg6).trans (kept_arg6 _), (h c main_arg7).trans (kept_arg7 _), (h c main_arg8).trans (kept_arg8 _)⟩)
    (run_seq scopedRefs_eq scopedSems_eq defs main (fun _ => ops) main_eq (fun _ => ops_sub) m ρ)

end Cert.ReferenceIdeal.Fold

end
-- ==== Proof.lean ====
/-
  The kernel against its reference: three graph-convolution layers and a row-wise log-softmax over 50000 nodes and
  800000 weighted edges.

  Both programs compute, layer by layer, h ↦ agg(h · W) + b — for the first two layers followed by max(·, 0) — where agg
  gathers the rows named by the edges' sources, scales row e by the edge's weight, and scatter-adds into the edges'
  destinations; then log_softmax along rows. The reference does all of it with host operations. The kernel does the
  gather / scale / scatter-add and the log-softmax with the SAME host operations, and moves two stages into tiled
  regions: the dense product h · W (operands changed to a 16-bit float format first — the identity on the extended
  reals —, 2000 rows per grid point into a zero accumulator) and the bias with the positive part (2000 rows per point,
  the bias reshaped to a 1×N row instead of broadcast twice).

  On the extended reals the two are one function, `Cert.KernelIdeal.Net.out`, of the nine arguments: entry (p, q) of a
  dense product is ∑ₖ h (p, k) · W (k, q) in the region as on the host (no law is needed, not even finiteness: the same
  sum in the same order, the accumulator's zero added on the left); the bias row read at (p, q) is b q either way;
  the maximum with a zero splat is the maximum with zero. The kernel's buffers are followed through its fold of host
  stretches and regions (Proof/KFold.lean over the six region modules), the reference's through the same stretches of
  its one line of host operations (Proof/RefFold.lean, Proof/RefNet.lean); the shared stretches are carried as named
  functions and never opened. The idealization rewrote nothing, so `preserves` has no conjunct.
-/
import proofs.«145066_j11639361372218_1_alg».proof.Defs
import proofs.«145066_j11639361372218_1_alg».proof.Proof.Gen.Kernel
import proofs.«145066_j11639361372218_1_alg».proof.Proof.Gen.Kernel.Skeleton
import proofs.«145066_j11639361372218_1_alg».proof.Proof.Gen.Kernel.Launch
import proofs.«145066_j11639361372218_1_alg».proof.Proof.Gen.Kernel.Points
import proofs.«145066_j11639361372218_1_alg».proof.Proof.Gen.Kernel.Frame
import proofs.«145066_j11639361372218_1_alg».proof.Proof.Gen.KernelIdeal
import proofs.«145066_j11639361372218_1_alg».proof.Proof.Gen.KernelIdeal.Skeleton
import proofs.«145066_j11639361372218_1_alg».proof.Proof.Gen.KernelIdeal.Launch
import proofs.«145066_j11639361372218_1_alg».proof.Proof.Gen.KernelIdeal.Points
import proofs.«145066_j11639361372218_1_alg».proof.Proof.Gen.KernelIdeal.Frame
import proofs.«145066_j11639361372218_1_alg».proof.Proof.Gen.ReferenceIdeal
import proofs.«145066_j11639361372218_1_alg».proof.Proof.Gen.Pre_finite_inputs
import proofs.«145066_j11639361372218_1_alg».proof.Proof.EndState
import proofs.«145066_j11639361372218_1_alg».proof.Proof.KFold
import proofs.«145066_j11639361372218_1_alg».proof.Proof.RefNet
import Idealize.ShloMosaic.Adequacy
import Idealize.ShloMosaic.Init

noncomputable section

namespace Cert.Proof

open Idealize.ShloMosaic Idealize.SL.Sem

/-- The kernel as printed runs, nothing faulting, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Fold.run_value m ρ)

/-- From memories agreeing on the nine arguments both idealized programs end with the result array at the network's
    value of those arguments. -/
theorem algebraic : Cert.algebraic_KernelIdeal_ReferenceIdeal := by
  intro m ρ m' ρ' _ hagree
  refine ⟨fun c => Cert.KernelIdeal.Net.out (Cert.KernelIdeal.Fold.A0 m c) (Cert.KernelIdeal.Fold.A1 m c) (Cert.KernelIdeal.Fold.A2 m c) (Cert.KernelIdeal.Fold.A3 m c) (Cert.KernelIdeal.Fold.A4 m c) (Cert.KernelIdeal.Fold.A5 m c) (Cert.KernelIdeal.Fold.A6 m c) (Cert.KernelIdeal.Fold.A7 m c) (Cert.KernelIdeal.Fold.A8 m c), ?_, ?_⟩
  · exact (θ_run Cert.KernelIdeal.defs _ _).mono
      (fun _ h c => ⟨(h c).1.trans (Cert.KernelIdeal.Fold.result m ρ c), (h c).2⟩)
      (Cert.KernelIdeal.EndState.run_result m ρ)
  · refine (θ_run Cert.ReferenceIdeal.defs _ _).mono (fun _ h c => ⟨(h c).1.trans ?_, (h c).2⟩)
      (Cert.ReferenceIdeal.Fold.run_value m' ρ')
    obtain ⟨e0, e1, e2, e3, e4, e5, e6, e7, e8⟩ := hagree c
    have h0 : Cert.ReferenceIdeal.Fold.B0 m' c = Cert.KernelIdeal.Fold.A0 m c := e0
    have h1 : Cert.ReferenceIdeal.Fold.B1 m' c = Cert.KernelIdeal.Fold.A1 m c := e1
    have h2 : Cert.ReferenceIdeal.Fold.B2 m' c = Cert.KernelIdeal.Fold.A2 m c := e2
    have h3 : Cert.ReferenceIdeal.Fold.B3 m' c = Cert.KernelIdeal.Fold.A3 m c := e3
    have h4 : Cert.ReferenceIdeal.Fold.B4 m' c = Cert.KernelIdeal.Fold.A4 m c := e4
    have h5 : Cert.ReferenceIdeal.Fold.B5 m' c = Cert.KernelIdeal.Fold.A5 m c := e5
    have h6 : Cert.ReferenceIdeal.Fold.B6 m' c = Cert.KernelIdeal.Fold.A6 m c := e6
    have h7 : Cert.ReferenceIdeal.Fold.B7 m' c = Cert.KernelIdeal.Fold.A7 m c := e7
    have h8 : Cert.ReferenceIdeal.Fold.B8 m' c = Cert.KernelIdeal.Fold.A8 m c := e8
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
